-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x16 .f32) (main_arg3 : FVec F S16 .f32) (main_arg4 : FVec F S16x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S5000x128 : Shape := ⟨2, ![5000, 128]⟩
abbrev S5000x16 : Shape := ⟨2, ![5000, 16]⟩
abbrev S1700000x16 : Shape := ⟨2, ![1700000, 16]⟩
abbrev S1x16 : Shape := ⟨2, ![1, 16]⟩
abbrev S1x128 : Shape := ⟨2, ![1, 128]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x16, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x16, .f32⟩
  | .hbm, ⟨74, _⟩ => ⟨S1700000x1, .f32⟩
  | .hbm, ⟨75, _⟩ => ⟨S1700000x16, .f32⟩
  | .hbm, ⟨76, _⟩ => ⟨S1700000x16, .f32⟩
  | .hbm, ⟨77, _⟩ => ⟨S_, .f32⟩
  | .hbm, ⟨78, _⟩ => ⟨S100000x16, .f32⟩
  | .hbm, ⟨79, _⟩ => ⟨S1700000x1, .i32⟩
  | .hbm, ⟨80, _⟩ => ⟨S100000x16, .f32⟩
  | .hbm, ⟨81, _⟩ => ⟨S1x128, .f32⟩
  | .hbm, ⟨82, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S128_S1x128 : S128.ShapeCasts S1x128
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S5000x16_S16x128_S5000x128_1_0_0_1_n_n_wf : DotDims.WF S5000x16 S16x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x128.size a ≤ S16x128.size a
  hwx2_1 : ∀ i : grid2.Coords, EltTy.bits .f32 = 32 ∨ (Rect.block (s := S16x128) S16x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x16 : Shape := ⟨2, ![100000, 16]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S1700000x128 : Shape := ⟨2, ![1700000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x16, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x128, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x16_S100000x16_1_0_0_1_n_n_wf : DotDims.WF S100000x128 S128x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x128_S100000x128_1_0_0_1_n_n_wf : DotDims.WF S100000x16 S16x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRunKit.lean ====
/-
  The run of the kernel's program with EVERY buffer it names read at the last boundary's contents: the generated
  frame theorem keeps only the six argument arrays in its conclusion, so the same launch is stated again here with
  the result array kept as well.
-/
import proofs.«129788_j32727650795996_2_alg».proof.Proof.Gen.KernelIdeal.Frame
import Idealize.ShloMosaic.PureOps.Ideal

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, and in
    every final state the result array holds the last boundary's contents at its buffer, the six argument arrays what
    they held at launch. The launch over the generated segments, the last thread state read against the final state. -/
theorem run_at_W8 : θ_run (defs (F := Ideal)) (onTc (τ := τ) (main (F := Ideal))) ⟨m, fun _ => 0, ρ⟩ (fun r => ∀ c : Dev nD,
      r.2.mem ((c.tc : Thread nD τ).loc main_v60) = Gen.W8 (F := Ideal) m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn

end
-- ==== Proof.Spec.lean ====
/-
  The dense stages of a two-layer graph convolution, as whole-array functions on the extended reals.

  The network is  out = Â · relu(Â · (x W1) + b1) · W2 + b2  with Â the degree-normalised adjacency (self loops
  added).  Three stages are dense: the product x W1 ([100000,128] by [128,16]), the rectified biased rows
  relu(a + b1), and the product with W2 plus the bias ([100000,16] by [16,128], plus b2 on every row).  Each is
  stated here entry by entry: entry (p, q) of a product is the sum over the contracted axis of the products of the
  entries, a bias kept as a row [1, n] is read at (0, q).
-/
import proofs.«129788_j32727650795996_2_alg».proof.KernelIdeal
import Idealize.ShloMosaic.Lib.ValueIdx
import Idealize.ShloMosaic.PureOps.Ideal

noncomputable section

open scoped BigOperators

namespace Cert.Gcn

open Idealize.ShloMosaic Idealize.ShloMosaic.ValueIdx Cert.KernelIdeal

/-- Entry (p, q) of x W1: the sum over k of x (p, k) · W1 (k, q). -/
def G0 (x : FVec Ideal S100000x128 .f32) (w : FVec Ideal S128x16 .f32) : FVec Ideal S100000x16 .f32 :=
  fun i => ∑ k : Fin 128, x (ix2 (⟨(i 0).val, (i 0).isLt⟩ : Fin 100000) k) * w (ix2 k (⟨(i 1).val, (i 1).isLt⟩ : Fin 16))

/-- Entry (p, q) of relu (a + b): the larger of a (p, q) + b (0, q) and 0. -/
def G1 (a : FVec Ideal S100000x16 .f32) (b : FVec Ideal S1x16 .f32) : FVec Ideal S100000x16 .f32 :=
  fun i => max (a (ix2 (⟨(i 0).val, (i 0).isLt⟩ : Fin 100000) (⟨(i 1).val, (i 1).isLt⟩ : Fin 16))
    + b (ix2 (0 : Fin 1) (⟨(i 1).val, (i 1).isLt⟩ : Fin 16))) 0

/-- Entry (p, q) of a W2 + b: the sum over k of a (p, k) · W2 (k, q), plus b (0, q). -/
def G2 (a : FVec Ideal S100000x16 .f32) (w : FVec Ideal S16x128 .f32) (b : FVec Ideal S1x128 .f32) :
    FVec Ideal S100000x128 .f32 :=
  fun i => (∑ k : Fin 16, a (ix2 (⟨(i 0).val, (i 0).isLt⟩ : Fin 100000) k) * w (ix2 k (⟨(i 1).val, (i 1).isLt⟩ : Fin 128)))
    + b (ix2 (0 : Fin 1) (⟨(i 1).val, (i 1).isLt⟩ : Fin 128))

theorem G0_apply (x : FVec Ideal S100000x128 .f32) (w : FVec Ideal S128x16 .f32) (p : Fin 100000) (q : Fin 16) :
    G0 x w (ix2 p q) = ∑ k : Fin 128, x (ix2 p k) * w (ix2 k q) := rfl

theorem G1_apply (a : FVec Ideal S100000x16 .f32) (b : FVec Ideal S1x16 .f32) (p : Fin 100000) (q : Fin 16) :
    G1 a b (ix2 p q) = max (a (ix2 p q) + b (ix2 (0 : Fin 1) q)) 0 := rfl

theorem G2_apply (a : FVec Ideal S100000x16 .f32) (w : FVec Ideal S16x128 .f32) (b : FVec Ideal S1x128 .f32)
    (p : Fin 100000) (q : Fin 128) :
    G2 a w b (ix2 p q) = (∑ k : Fin 16, a (ix2 p k) * w (ix2 k q)) + b (ix2 (0 : Fin 1) q) := rfl

end Cert.Gcn

end
-- ==== Proof.KTerm.lean ====
/-
  The sparse part of the graph convolution as the kernel's program spells it: from the edge table E : [2, 1600000]
  of 32-bit words, the source and destination lists with one self loop per node appended, the in-degree as an
  accumulating scatter of ones, its inverse square root where the degree is positive (0 elsewhere), the edge weight
  norm = dinv[src] · dinv[dst], and the aggregation  agg h = segment_sum (h[src] · norm, dst)  of a [100000, 16]
  array.  The whole network is then  G2 (agg (G1 (agg (G0 x W1)) b1)) W2 b2  over the three dense stages.
-/
import proofs.«129788_j32727650795996_2_alg».proof.Proof.Spec

noncomputable section

namespace Cert.Gcn.K

open Idealize.ShloMosaic Cert.KernelIdeal Cert.KernelIdeal.Facts₀ Cert.KernelIdeal.Facts

variable [Cert.KernelIdeal.Facts] (E : IVec S2x1600000 32)

/-- Row r of the edge table followed by 0, 1, …, 99999 (the self loops). -/
def src : IVec S1700000 32 :=
  concatenate S1700000 0 [⟨S1600000, shapeCast _ (extractStridedSlice S1x1600000 ![0, 0] E slices_S2x1600000_S1x1600000_0_0) shapeCasts_S1x1600000_S1600000⟩,
    ⟨S100000, iotaInDim S100000 32 0⟩] concatenates_S1600000_S100000_S1700000_d0

def dst : IVec S1700000 32 :=
  concatenate S1700000 0 [⟨S1600000, shapeCast _ (extractStridedSlice S1x1600000 ![1, 0] E slices_S2x1600000_S1x1600000_1_0) shapeCasts_S1x1600000_S1600000⟩,
    ⟨S100000, iotaInDim S100000 32 0⟩] concatenates_S1600000_S100000_S1700000_d0

/-- A negative word is moved up by 100000 before it is used to take an entry (python's negative indexing). -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A list of words kept as a column [1700000, 1]. -/
def col (v : IVec S1700000 32) : IVec S1700000x1 32 :=
  broadcastInDim S1700000x1 ![0] bcast_S1700000_S1700000x1_0 v

/-- The in-degree: ones accumulated at the destination words. -/
def deg : FVec Ideal S100000 .f32 :=
  Host.scatterAdd (F := Ideal) scatter_S100000_S1700000x1_S1700000_n_0_0_1
    (broadcastInDim S100000 ![] bcast_S_S100000 (constant (F := Ideal) S_ .f32 0x00000000#32))
    (col (dst E))
    (broadcastInDim S1700000 ![] bcast_S_S1700000 (constant (F := Ideal) S_ .f32 0x3F800000#32))

/-- deg^(-1/2) where deg > 0, else 0. -/
def dinv : FVec Ideal S100000 .f32 :=
  select (cmpf .ogt (deg E) (broadcastInDim S100000 ![] bcast_S_S100000 (constant (F := Ideal) S_ .f32 0x00000000#32)))
    (Host.rsqrt (F := Ideal) (deg E))
    (broadcastInDim S100000 ![] bcast_S_S100000 (id (constant (F := Ideal) S_ .f32 0x00000000#32)))

/-- The weight of edge e: dinv at its source times dinv at its destination. -/
def norm : FVec Ideal S1700000 .f32 :=
  mulf (Host.gather gather_S100000_S1700000x1_S1700000_n_0_n_n_0_1_1 (dinv E) (col (wrap (src E))))
    (Host.gather gather_S100000_S1700000x1_S1700000_n_0_n_n_0_1_1 (dinv E) (col (wrap (dst E))))

/-- The weights repeated along 16 columns. -/
def normB : FVec Ideal S1700000x16 .f32 :=
  broadcastInDim S1700000x16 ![0, 1] bcast_S1700000x1_S1700000x16_0_1
    (broadcastInDim S1700000x1 ![0] bcast_S1700000_S1700000x1_0 (norm E))

/-- One aggregation: row p of the result is the sum over the edges e with destination p of norm e · h[src e]. -/
def agg (h : FVec Ideal S100000x16 .f32) : FVec Ideal S100000x16 .f32 :=
  Host.scatterAdd (F := Ideal) scatter_S100000x16_S1700000x1_S1700000x16_1_0_0_1
    (broadcastInDim S100000x16 ![] bcast_S_S100000x16 (constant (F := Ideal) S_ .f32 0x00000000#32))
    (col (dst E))
    (mulf (Host.gather gather_S100000x16_S1700000x1_S1700000x16_1_0_n_n_0_1_116 h (col (wrap (src E)))) (normB E))

/-- The kernel's result as a function of its six argument arrays. -/
def out (x : FVec Ideal S100000x128 .f32) (W1 : FVec Ideal S128x16 .f32) (b1 : FVec Ideal S16 .f32)
    (W2 : FVec Ideal S16x128 .f32) (b2 : FVec Ideal S128 .f32) : FVec Ideal S100000x128 .f32 :=
  G2 (agg E (G1 (agg E (G0 x W1)) (shapeCast _ b1 shapeCasts_S16_S1x16))) W2 (shapeCast _ b2 shapeCasts_S128_S1x128)

end Cert.Gcn.K

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.Region0.lean ====
/-
  What region 0 of the kernel's program leaves in its output array.

  Region 0 is the product x W1.  Its grid has twenty points; point t takes rows 5000 t … 5000 t + 4999 of x (all 128
  columns) and the whole of W1, and leaves their product, a [5000, 16] block, as rows 5000 t … 5000 t + 4999 of the
  result.  Entry (p, q) of that block is the sum over k of x (5000 t + p, k) · W1 (k, q): an entry of a product
  depends on one row of the left factor only, so the block is exactly the rows 5000 t … of the whole product, and the
  twenty blocks fill the 100000 rows.
-/
import proofs.«129788_j32727650795996_2_alg».proof.Proof.Spec
import proofs.«129788_j32727650795996_2_alg».proof.Proof.Gen.KernelIdeal.Frame
import proofs.«129788_j32727650795996_2_alg».proof.Proof.LibPlainMatmul
import Idealize.ShloMosaic.Lib.Pipeline.Value

noncomputable section

open scoped BigOperators

namespace Cert.Gcn

open Idealize.ShloMosaic Idealize.ShloMosaic.TcCoe Idealize.SL.Sem Idealize.ShloMosaic.ValueIdx
open Cert.KernelIdeal Cert.KernelIdeal.Gen

namespace Product1

/-- The offsets (0, 0) of a rectangle that is a whole buffer are zero on every axis. -/
theorem zero_offsets : (![0, 0] : Fin 2 → Nat) = fun _ => 0 := funext fun a => by fin_cases a <;> rfl

/-- The body's stored value at entry (p, q): the narrowing of the two factors changes no value on the extended
    reals, and the product accumulated onto the zero array is the sum over k of left (p, k) · right (k, q). -/
theorem block_entry (x : FVec Ideal S5000x128 .f32) (w : FVec Ideal S128x16 .f32) (p : Fin 5000) (q : Fin 16) :
    k0_pay1 (F := Ideal) x w (ix2 p q) = ∑ k : Fin 128, x (ix2 p k) * w (ix2 k q) := by
  unfold k0_pay1
  exact Cert.PlainMatmul.zero_acc_apply Facts₀.dot_S5000x128_S128x16_S5000x16_1_0_0_1_n_n_wf none
    (truncf .bf16 x Facts₀.bitsLt_bf16_f32) (truncf .bf16 w Facts₀.bitsLt_bf16_f32) p q

/-- If row p of a block of the left factor is row P of the whole left factor, and the right block is the whole right
    factor, then entry (p, q) of the block's product is entry (P, q) of the whole product. -/
theorem block_entry_of_rows (X : FVec Ideal S100000x128 .f32) (W : FVec Ideal S128x16 .f32)
    (x : FVec Ideal S5000x128 .f32) (w : FVec Ideal S128x16 .f32) (P : Fin 100000) (p : Fin 5000) (q : Fin 16)
    (hx : ∀ k : Fin 128, x (ix2 p k) = X (ix2 P k)) (hw : ∀ k : Fin 128, w (ix2 k q) = W (ix2 k q)) :
    k0_pay1 (F := Ideal) x w (ix2 p q) = G0 X W (ix2 P q) := by
  rw [G0_apply]
  refine (block_entry x w p q).trans ?_
  exact Finset.sum_congr rfl fun k _ => by rw [hx k, hw k]

/-- The block indices at grid point t: the left factor's and the result's row block is t, their column block 0; the
    right factor is one block, at (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 5000 t … 5000 t + 4999 of the whole product of the arrays the region finds. -/
theorem flushed_block (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (G0 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x16) zero_offsets]
  funext j
  obtain ⟨p, q, rfl⟩ : ∃ (p : Fin 5000) (q : Fin 16), j = ix2 p q := ⟨j 0, j 1, eq_ix2 j⟩
  have hN : cfg0.N = 20 := N_0
  have ht : t.val < 20 := Nat.lt_of_lt_of_eq t.isLt hN
  have hp : p.val < 5000 := p.isLt
  have hP : t.val * 5000 + p.val < 100000 := by omega
  obtain ⟨e00, e01, e10, e11, e20, e21⟩ := block_indices t
  have h2 : ((cfg0.win 2).blk t).view.emb (ix2 p q) = (ix2 (⟨t.val * 5000 + p.val, hP⟩ : Fin 100000) q : S100000x16.Idx) := by
    funext a; apply Fin.ext
    match a with
    | ⟨0, _⟩ => show win0_2.index t (0 : Fin 2) * 5000 + 1 * p.val = t.val * 5000 + p.val; rw [e20]; omega
    | ⟨1, _⟩ => show win0_2.index t (1 : Fin 2) * 16 + 1 * q.val = q.val; rw [e21]; omega
  show k0_pay1 (F := Ideal) (iblk0 V c 0 t) (iblk0 V c 1 t) (ix2 p q)
    = G0 (V c main_arg0) (V c main_arg2) (((cfg0.win 2).blk t).view.emb (ix2 p q))
  refine Eq.trans ?_ (congrArg (G0 (V c main_arg0) (V c main_arg2)) h2.symm)
  refine block_entry_of_rows (V c main_arg0) (V c main_arg2) (iblk0 V c 0 t) (iblk0 V c 1 t) ⟨t.val * 5000 + p.val, hP⟩ p q
    (fun k => ?_) (fun k => ?_)
  · show V c main_arg0 (((cfg0.win 0).blk t).view.emb (ix2 p k)) = V c main_arg0 (ix2 (⟨t.val * 5000 + p.val, hP⟩ : Fin 100000) k)
    refine congrArg (V c main_arg0) ?_
    funext a; apply Fin.ext
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; rw [e10]; omega
    | ⟨1, _⟩ => show win0_1.index t (1 : Fin 2) * 16 + 1 * q.val = q.val; rw [e11]; omega

/-- An entry of the result array lies in point t's block iff on each axis its coordinate is within the block's range. -/
theorem mem_block (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v30).slice (win0_2.rect t)).set ↔ _
  rw [View.set_slice_whole, Rect.mem_set_unit]
  exact Iff.rfl

/-- Row r of the result is written back by point r / 5000: the twenty blocks fill the array. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have hlt : (i 0).val / 5000 < cfg0.N := by rw [hN]; omega
  obtain ⟨-, -, -, -, e20, e21⟩ := block_indices ⟨(i 0).val / 5000, hlt⟩
  refine ⟨⟨(i 0).val / 5000, hlt⟩, flush0_2 _, ?_⟩
  rw [mem_block]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hlt⟩ (1 : Fin 2) * 16 ≤ (i 1).val
      ∧ (i 1).val < win0_2.index ⟨(i 0).val / 5000, hlt⟩ (1 : Fin 2) * 16 + 16
    rw [e21]; omega

end Product1

/-- After region 0 its result array holds the whole product x W1 of the arrays the region finds. -/
theorem region0_array (V : (c : Dev nD) → (b : Ref sig .tc) → Buf (Elt Ideal) ((c : Thread nD τ).loc b)) (c : Dev nD) :
    (dat0 (F := Ideal) V c).arrAt 2 cfg0.N = G0 (V c main_arg0) (V c main_arg2) :=
  (dat0 (F := Ideal) V c).arrAt_eq_of_cover 2 (G0 (V c main_arg0) (V c main_arg2))
    (fun t _ => Product1.flushed_block V c t) Product1.covered

end Cert.Gcn

end
-- ==== Proof.Region1.lean ====
/-
  What region 1 of the kernel's program leaves in its output array.

  Region 1 adds a bias row to every row and rectifies: relu (a + b).  Its grid has twenty points; point t takes rows
  5000 t … 5000 t + 4999 of a (all 16 columns) and the one row b, and leaves max (a (5000 t + p, q) + b (0, q), 0) at
  entry (p, q) of a [5000, 16] block that becomes rows 5000 t … 5000 t + 4999 of the result.  An entry depends on the
  same entry of a and on the bias at its column only, so the block is exactly those rows of the whole array
  relu (a + b), and the twenty blocks fill the 100000 rows.
-/
import proofs.«129788_j32727650795996_2_alg».proof.Proof.Spec
import proofs.«129788_j32727650795996_2_alg».proof.Proof.Gen.KernelIdeal.Frame
import Idealize.ShloMosaic.Lib.Pipeline.Value
import Idealize.ShloMosaic.Lib.ValueLayout
import Idealize.ShloMosaic.PureOps.Ideal.Laws

noncomputable section

namespace Cert.Gcn

open Idealize.ShloMosaic Idealize.ShloMosaic.TcCoe Idealize.SL.Sem Idealize.ShloMosaic.ValueIdx
open Cert.KernelIdeal Cert.KernelIdeal.Gen

namespace BiasRelu

/-- The offsets (0, 0) of a rectangle that is a whole buffer are zero on every axis. -/
theorem zero_offsets : (![0, 0] : Fin 2 → Nat) = fun _ => 0 := funext fun a => by fin_cases a <;> rfl

/-- The body's stored value at entry (p, q): the casts to the same shape change nothing, the bias row spread over the
    5000 rows reads b (0, q) in every row, and the zero word is the extended real 0; so the entry is
    max (a (p, q) + b (0, q), 0). -/
theorem block_entry (x : FVec Ideal S5000x16 .f32) (b : FVec Ideal S1x16 .f32) (p : Fin 5000) (q : Fin 16) :
    k1_pay1 (F := Ideal) x b (ix2 p q) = max (x (ix2 p q) + b (ix2 (0 : Fin 1) q)) 0 := by
  have h1 : shapeCast S5000x16 x Facts₀.shapeCasts_S5000x16_S5000x16 = x := shapeCast_self x _
  have h2 : shapeCast S1x16 b Facts₀.shapeCasts_S1x16_S1x16 = b := shapeCast_self b _
  unfold k1_pay1
  show max (shapeCast S5000x16 x Facts₀.shapeCasts_S5000x16_S5000x16 (ix2 p q)
      + broadcastTo S5000x16 (shapeCast S1x16 b Facts₀.shapeCasts_S1x16_S1x16) Facts₀.broadcasts_S1x16_S5000x16 (ix2 p q))
      (Ideal.ofBits .f32 0x00000000#32) = _
  rw [h1, h2, Ideal.ofBits_zero_f32, broadcastTo_1b_ab_apply b Facts₀.broadcasts_S1x16_S5000x16 p q]

/-- If entry (p, q) of a block of a is entry (P, q) of the whole a, and the bias block is the whole bias row, then
    entry (p, q) of the block's result is entry (P, q) of relu (a + b). -/
theorem block_entry_of_rows (A : FVec Ideal S100000x16 .f32) (B : FVec Ideal S1x16 .f32)
    (x : FVec Ideal S5000x16 .f32) (b : FVec Ideal S1x16 .f32) (P : Fin 100000) (p : Fin 5000) (q : Fin 16)
    (hx : x (ix2 p q) = A (ix2 P q)) (hb : b (ix2 (0 : Fin 1) q) = B (ix2 (0 : Fin 1) q)) :
    k1_pay1 (F := Ideal) x b (ix2 p q) = G1 A B (ix2 P q) := by
  rw [G1_apply]
  refine (block_entry x b p q).trans ?_
  rw [hx, hb]

/-- The block indices at grid point t: the row block of a and of the result is t, their column block 0; the bias row
    is one block, at (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 5000 t … 5000 t + 4999 of relu (a + b) of the arrays the region finds. -/
theorem flushed_block (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (G1 (V c main_v43) (V c main_v44)) := by
  show (cfg1.win 2).cut (grid1.coords t) ((dat1 (F := Ideal) V c).after 2 t) = _
  rw [after1_2]
  unfold out1_2
  rw [View.canon_unit_zero zero_offsets]
  simp only [View.ld_unit_zero (S := S5000x16) zero_offsets, View.ld_unit_zero (S := S1x16) zero_offsets]
  funext j
  obtain ⟨p, q, rfl⟩ : ∃ (p : Fin 5000) (q : Fin 16), j = ix2 p q := ⟨j 0, j 1, eq_ix2 j⟩
  have hN : cfg1.N = 20 := N_1
  have ht : t.val < 20 := Nat.lt_of_lt_of_eq t.isLt hN
  have hp : p.val < 5000 := p.isLt
  have hP : t.val * 5000 + p.val < 100000 := by omega
  obtain ⟨e00, e01, e10, e11, e20, e21⟩ := block_indices t
  have h2 : ((cfg1.win 2).blk t).view.emb (ix2 p q) = (ix2 (⟨t.val * 5000 + p.val, hP⟩ : Fin 100000) q : S100000x16.Idx) := by
    funext a; apply Fin.ext
    match a with
    | ⟨0, _⟩ => show win1_2.index t (0 : Fin 2) * 5000 + 1 * p.val = t.val * 5000 + p.val; rw [e20]; omega
    | ⟨1, _⟩ => show win1_2.index t (1 : Fin 2) * 16 + 1 * q.val = q.val; rw [e21]; omega
  show k1_pay1 (F := Ideal) (iblk1 V c 0 t) (iblk1 V c 1 t) (ix2 p q)
    = G1 (V c main_v43) (V c main_v44) (((cfg1.win 2).blk t).view.emb (ix2 p q))
  refine Eq.trans ?_ (congrArg (G1 (V c main_v43) (V c main_v44)) h2.symm)
  refine block_entry_of_rows (V c main_v43) (V c main_v44) (iblk1 V c 0 t) (iblk1 V c 1 t) ⟨t.val * 5000 + p.val, hP⟩ p q ?_ ?_
  · show V c main_v43 (((cfg1.win 0).blk t).view.emb (ix2 p q)) = V c main_v43 (ix2 (⟨t.val * 5000 + p.val, hP⟩ : Fin 100000) q)
    refine congrArg (V c main_v43) ?_
    funext a; apply Fin.ext
    match a with
    | ⟨0, _⟩ => show win1_0.index t (0 : Fin 2) * 5000 + 1 * p.val = t.val * 5000 + p.val; rw [e00]; omega
    | ⟨1, _⟩ => show win1_0.index t (1 : Fin 2) * 16 + 1 * q.val = q.val; rw [e01]; omega
  · show V c main_v44 (((cfg1.win 1).blk t).view.emb (ix2 (0 : Fin 1) q)) = V c main_v44 (ix2 (0 : Fin 1) q)
    refine congrArg (V c main_v44) ?_
    funext a; apply Fin.ext
    match a with
    | ⟨0, _⟩ => show win1_1.index t (0 : Fin 2) * 1 + 1 * 0 = 0; rw [e10]
    | ⟨1, _⟩ => show win1_1.index t (1 : Fin 2) * 16 + 1 * q.val = q.val; rw [e11]; omega

/-- An entry of the result array lies in point t's block iff on each axis its coordinate is within the block's range. -/
theorem mem_block (t : Fin cfg1.N) (i : S100000x16.Idx) :
    i ∈ ((cfg1.win 2).blk t).view.set ↔ ∀ a : Fin 2, win1_2.index t a * S5000x16.size a ≤ (i a).val
      ∧ (i a).val < win1_2.index t a * S5000x16.size a + S5000x16.size a := by
  show i ∈ ((View.whole main_v45).slice (win1_2.rect t)).set ↔ _
  rw [View.set_slice_whole, Rect.mem_set_unit]
  exact Iff.rfl

/-- Row r of the result is written back by point r / 5000: the twenty blocks fill the array. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  have hlt : (i 0).val / 5000 < cfg1.N := by rw [hN]; omega
  obtain ⟨-, -, -, -, e20, e21⟩ := block_indices ⟨(i 0).val / 5000, hlt⟩
  refine ⟨⟨(i 0).val / 5000, hlt⟩, flush1_2 _, ?_⟩
  rw [mem_block]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hlt⟩ (1 : Fin 2) * 16 ≤ (i 1).val
      ∧ (i 1).val < win1_2.index ⟨(i 0).val / 5000, hlt⟩ (1 : Fin 2) * 16 + 16
    rw [e21]; omega

end BiasRelu

/-- After region 1 its result array holds relu (a + b) of the arrays the region finds. -/
theorem region1_array (V : (c : Dev nD) → (b : Ref sig .tc) → Buf (Elt Ideal) ((c : Thread nD τ).loc b)) (c : Dev nD) :
    (dat1 (F := Ideal) V c).arrAt 2 cfg1.N = G1 (V c main_v43) (V c main_v44) :=
  (dat1 (F := Ideal) V c).arrAt_eq_of_cover 2 (G1 (V c main_v43) (V c main_v44))
    (fun t _ => BiasRelu.flushed_block V c t) BiasRelu.covered

end Cert.Gcn

end
-- ==== Proof.Region2.lean ====
/-
  What region 2 of the kernel's program leaves in its output array.

  Region 2 is the product a W2 with a bias row added to every row.  Its grid has twenty points; point t takes rows
  5000 t … 5000 t + 4999 of a (all 16 columns), the whole of W2 and the one row b, and leaves, at entry (p, q) of a
  [5000, 128] block, the sum over k of a (5000 t + p, k) · W2 (k, q), plus b (0, q); the block becomes rows
  5000 t … 5000 t + 4999 of the result.  An entry depends on one row of a, one column of W2 and the bias at its
  column, so the block is exactly those rows of the whole array a W2 + b, and the twenty blocks fill the 100000 rows.
-/
import proofs.«129788_j32727650795996_2_alg».proof.Proof.Spec
import proofs.«129788_j32727650795996_2_alg».proof.Proof.Gen.KernelIdeal.Frame
import proofs.«129788_j32727650795996_2_alg».proof.Proof.LibPlainMatmul
import Idealize.ShloMosaic.Lib.Pipeline.Value
import Idealize.ShloMosaic.Lib.ValueLayout

noncomputable section

open scoped BigOperators

namespace Cert.Gcn

open Idealize.ShloMosaic Idealize.ShloMosaic.TcCoe Idealize.SL.Sem Idealize.ShloMosaic.ValueIdx
open Cert.KernelIdeal Cert.KernelIdeal.Gen

namespace Product2

/-- The offsets (0, 0) of a rectangle that is a whole buffer are zero on every axis. -/
theorem zero_offsets : (![0, 0] : Fin 2 → Nat) = fun _ => 0 := funext fun a => by fin_cases a <;> rfl

/-- The body's stored value at entry (p, q): the cast to the same shape and the narrowing of the factors change no
    value on the extended reals, the product accumulated onto the zero array is the sum over k of
    left (p, k) · right (k, q), and the bias row spread over the 5000 rows reads b (0, q) in every row. -/
theorem block_entry (x : FVec Ideal S5000x16 .f32) (w : FVec Ideal S16x128 .f32) (b : FVec Ideal S1x128 .f32)
    (p : Fin 5000) (q : Fin 128) :
    k2_pay1 (F := Ideal) x w b (ix2 p q)
      = (∑ k : Fin 16, x (ix2 p k) * w (ix2 k q)) + b (ix2 (0 : Fin 1) q) := by
  have h1 : shapeCast S5000x16 x Facts₀.shapeCasts_S5000x16_S5000x16 = x := shapeCast_self x _
  have h2 : shapeCast S1x128 b Facts₀.shapeCasts_S1x128_S1x128 = b := shapeCast_self b _
  unfold k2_pay1
  show FloatOps.matmul dot_S5000x16_S16x128_S5000x128_1_0_0_1_n_n none
        (truncf .bf16 (shapeCast S5000x16 x Facts₀.shapeCasts_S5000x16_S5000x16) Facts₀.bitsLt_bf16_f32)
        (truncf .bf16 w Facts₀.bitsLt_bf16_f32) (constant S5000x128 .f32 0x00000000#32) (ix2 p q)
      + broadcastTo S5000x128 (shapeCast S1x128 b Facts₀.shapeCasts_S1x128_S1x128) Facts₀.broadcasts_S1x128_S5000x128 (ix2 p q) = _
  rw [h1, h2, broadcastTo_1b_ab_apply b Facts₀.broadcasts_S1x128_S5000x128 p q]
  exact congrArg (· + b (ix2 (0 : Fin 1) q))
    (Cert.PlainMatmul.zero_acc_apply Facts₀.dot_S5000x16_S16x128_S5000x128_1_0_0_1_n_n_wf none
      (truncf .bf16 x Facts₀.bitsLt_bf16_f32) (truncf .bf16 w Facts₀.bitsLt_bf16_f32) p q)

/-- If row p of a block of the left factor is row P of the whole left factor, and the other two blocks are the whole
    right factor and the whole bias row, then entry (p, q) of the block's result is entry (P, q) of a W2 + b. -/
theorem block_entry_of_rows (A : FVec Ideal S100000x16 .f32) (W : FVec Ideal S16x128 .f32) (B : FVec Ideal S1x128 .f32)
    (x : FVec Ideal S5000x16 .f32) (w : FVec Ideal S16x128 .f32) (b : FVec Ideal S1x128 .f32)
    (P : Fin 100000) (p : Fin 5000) (q : Fin 128)
    (hx : ∀ k : Fin 16, x (ix2 p k) = A (ix2 P k)) (hw : ∀ k : Fin 16, w (ix2 k q) = W (ix2 k q))
    (hb : b (ix2 (0 : Fin 1) q) = B (ix2 (0 : Fin 1) q)) :
    k2_pay1 (F := Ideal) x w b (ix2 p q) = G2 A W B (ix2 P q) := by
  rw [G2_apply]
  refine (block_entry x w b p q).trans ?_
  rw [hb]
  exact congrArg (· + B (ix2 (0 : Fin 1) q)) (Finset.sum_congr rfl fun k _ => by rw [hx k, hw k])

/-- The block indices at grid point t: the row block of the left factor and of the result is t, their column block
    0; the right factor and the bias row are one block each, at (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is rows 5000 t … 5000 t + 4999 of a W2 + b of the arrays the region finds. -/
theorem flushed_block (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (G2 (V c main_v58) (V c main_arg4) (V c main_v59)) := by
  show (cfg2.win 3).cut (grid2.coords t) ((dat2 (F := Ideal) V c).after 3 t) = _
  rw [after2_3]
  unfold out2_3
  rw [View.canon_unit_zero zero_offsets]
  simp only [View.ld_unit_zero (S := S5000x16) zero_offsets, View.ld_unit_zero (S := S16x128) zero_offsets,
    View.ld_unit_zero (S := S1x128) zero_offsets]
  funext j
  obtain ⟨p, q, rfl⟩ : ∃ (p : Fin 5000) (q : Fin 128), j = ix2 p q := ⟨j 0, j 1, eq_ix2 j⟩
  have hN : cfg2.N = 20 := N_2
  have ht : t.val < 20 := Nat.lt_of_lt_of_eq t.isLt hN
  have hp : p.val < 5000 := p.isLt
  have hP : t.val * 5000 + p.val < 100000 := by omega
  obtain ⟨e00, e01, e10, e11, e20, e21, e30, e31⟩ := block_indices t
  have h3 : ((cfg2.win 3).blk t).view.emb (ix2 p q) = (ix2 (⟨t.val * 5000 + p.val, hP⟩ : Fin 100000) q : S100000x128.Idx) := by
    funext a; apply Fin.ext
    match a with
    | ⟨0, _⟩ => show win2_3.index t (0 : Fin 2) * 5000 + 1 * p.val = t.val * 5000 + p.val; rw [e30]; omega
    | ⟨1, _⟩ => show win2_3.index t (1 : Fin 2) * 128 + 1 * q.val = q.val; rw [e31]; omega
  show k2_pay1 (F := Ideal) (iblk2 V c 0 t) (iblk2 V c 1 t) (iblk2 V c 2 t) (ix2 p q)
    = G2 (V c main_v58) (V c main_arg4) (V c main_v59) (((cfg2.win 3).blk t).view.emb (ix2 p q))
  refine Eq.trans ?_ (congrArg (G2 (V c main_v58) (V c main_arg4) (V c main_v59)) h3.symm)
  refine block_entry_of_rows (V c main_v58) (V c main_arg4) (V c main_v59) (iblk2 V c 0 t) (iblk2 V c 1 t) (iblk2 V c 2 t)
    ⟨t.val * 5000 + p.val, hP⟩ p q (fun k => ?_) (fun k => ?_) ?_
  · show V c main_v58 (((cfg2.win 0).blk t).view.emb (ix2 p k)) = V c main_v58 (ix2 (⟨t.val * 5000 + p.val, hP⟩ : Fin 100000) k)
    refine congrArg (V c main_v58) ?_
    funext a; apply Fin.ext
    match a with
    | ⟨0, _⟩ => show win2_0.index t (0 : Fin 2) * 5000 + 1 * p.val = t.val * 5000 + p.val; rw [e00]; omega
    | ⟨1, _⟩ => show win2_0.index t (1 : Fin 2) * 16 + 1 * k.val = k.val; rw [e01]; omega
  · show V c main_arg4 (((cfg2.win 1).blk t).view.emb (ix2 k q)) = V c main_arg4 (ix2 k q)
    refine congrArg (V c main_arg4) ?_
    funext a; apply Fin.ext
    match a with
    | ⟨0, _⟩ => show win2_1.index t (0 : Fin 2) * 16 + 1 * k.val = k.val; rw [e10]; omega
    | ⟨1, _⟩ => show win2_1.index t (1 : Fin 2) * 128 + 1 * q.val = q.val; rw [e11]; omega
  · show V c main_v59 (((cfg2.win 2).blk t).view.emb (ix2 (0 : Fin 1) q)) = V c main_v59 (ix2 (0 : Fin 1) q)
    refine congrArg (V c main_v59) ?_
    funext a; apply Fin.ext
    match a with
    | ⟨0, _⟩ => show win2_2.index t (0 : Fin 2) * 1 + 1 * 0 = 0; rw [e20]
    | ⟨1, _⟩ => show win2_2.index t (1 : Fin 2) * 128 + 1 * q.val = q.val; rw [e21]; omega

/-- An entry of the result array lies in point t's block iff on each axis its coordinate is within the block's range. -/
theorem mem_block (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v60).slice (win2_3.rect t)).set ↔ _
  rw [View.set_slice_whole, Rect.mem_set_unit]
  exact Iff.rfl

/-- Row r of the result is written back by point r / 5000: the twenty blocks fill the array. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, -, -, e30, e31⟩ := block_indices ⟨(i 0).val / 5000, hlt⟩
  refine ⟨⟨(i 0).val / 5000, hlt⟩, flush2_3 _, ?_⟩
  rw [mem_block]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hlt⟩ (1 : Fin 2) * 128 ≤ (i 1).val
      ∧ (i 1).val < win2_3.index ⟨(i 0).val / 5000, hlt⟩ (1 : Fin 2) * 128 + 128
    rw [e31]; omega

end Product2

/-- After region 2 its result array holds a W2 + b of the arrays the region finds. -/
theorem region2_array (V : (c : Dev nD) → (b : Ref sig .tc) → Buf (Elt Ideal) ((c : Thread nD τ).loc b)) (c : Dev nD) :
    (dat2 (F := Ideal) V c).arrAt 3 cfg2.N = G2 (V c main_v58) (V c main_arg4) (V c main_v59) :=
  (dat2 (F := Ideal) V c).arrAt_eq_of_cover 3 (G2 (V c main_v58) (V c main_arg4) (V c main_v59))
    (fun t _ => Product2.flushed_block V c t) Product2.covered

end Cert.Gcn

end
-- ==== Proof.KernelRunOps.lean ====
/-
  Each stretch of host operations of the kernel's program, read at the buffers that later stages consume, from
  ARBITRARY contents W before the stretch: the stretch's operations applied to W at the buffers it reads.  Stated
  against the terms of the sparse part (K.src, K.dst, K.deg, K.dinv, K.norm, K.agg), so that the walk through the
  program only has to chain them; and, for the buffers a stretch does not write, that it leaves them as they were.
-/
import proofs.«129788_j32727650795996_2_alg».proof.Proof.KTerm
import proofs.«129788_j32727650795996_2_alg».proof.Proof.Gen.KernelIdeal.Launch
import Idealize.ShloMosaic.Lib.StableHlo.Run

noncomputable section

namespace Cert.Gcn

open Idealize.ShloMosaic Idealize.ShloMosaic.TcCoe Idealize.ShloMosaic.StableHlo
open Cert.KernelIdeal Cert.KernelIdeal.Gen

/-- A buffer that no operation of a stretch writes holds after the stretch what it held before: each operation
    writes one buffer, and the buffer asked for differs from every one of them. -/
macro "after_keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (W : Valuation τ sig (Elt Ideal)) (E : IVec S2x1600000 32)

/-! ## The first stretch: the two edge lists with the self loops appended, the in-degree, its comparison with 0 and
    its inverse square root -/

theorem ops0_v3 (hE : W (Proc.devRef .tc main_arg1) = E) :
    after (hostOps0 (F := Ideal)) W (Proc.devRef .tc main_v3) = K.src E := by
  subst hE; simp only [hostOps0]; after_results; rfl

theorem ops0_v6 (hE : W (Proc.devRef .tc main_arg1) = E) :
    after (hostOps0 (F := Ideal)) W (Proc.devRef .tc main_v6) = K.dst E := by
  subst hE; simp only [hostOps0]; after_results; rfl

theorem ops0_v12 (hE : W (Proc.devRef .tc main_arg1) = E) :
    after (hostOps0 (F := Ideal)) W (Proc.devRef .tc main_v12)
      = cmpf .ogt (K.deg E) (broadcastInDim S100000 ![] bcast_S_S100000 (constant (F := Ideal) S_ .f32 0x00000000#32)) := by
  subst hE; simp only [hostOps0]; after_results; rfl

theorem ops0_v13 (hE : W (Proc.devRef .tc main_arg1) = E) :
    after (hostOps0 (F := Ideal)) W (Proc.devRef .tc main_v13) = Host.rsqrt (F := Ideal) (K.deg E) := by
  subst hE; simp only [hostOps0]; after_results; rfl

theorem ops0_cst_2 :
    after (hostOps0 (F := Ideal)) W (Proc.devRef .tc main_cst_2) = constant (F := Ideal) S_ .f32 0x00000000#32 := by
  simp only [hostOps0]; after_results

/-! ## The second stretch (the outlined selection): the inverse square root where the degree is positive, 0 elsewhere -/

/-! The outlined function names its buffers through references that carry the type of the value they hold; at the
    literal buffers of this call the transport between a value's type and its buffer's is the identity. -/

theorem toBuf_v14 (v : FVec Ideal S100000 .f32) : ((TRef.of main_v14 : TRef sig ⟨S100000, .f32⟩).toBuf (Val := Elt Ideal) v : FVec Ideal S100000 .f32) = v := rfl
theorem ofBuf_v14 (v : FVec Ideal S100000 .f32) : ((TRef.of main_v14 : TRef sig ⟨S100000, .f32⟩).ofBuf (Val := Elt Ideal) v : FVec Ideal S100000 .f32) = v := rfl
theorem toBuf_v13 (v : FVec Ideal S100000 .f32) : ((TRef.of main_v13 : TRef sig ⟨S100000, .f32⟩).toBuf (Val := Elt Ideal) v : FVec Ideal S100000 .f32) = v := rfl
theorem ofBuf_v13 (v : FVec Ideal S100000 .f32) : ((TRef.of main_v13 : TRef sig ⟨S100000, .f32⟩).ofBuf (Val := Elt Ideal) v : FVec Ideal S100000 .f32) = v := rfl
theorem toBuf_v12 (v : IVec S100000 1) : ((TRef.of main_v12 : TRef sig ⟨S100000, .i1⟩).toBuf (Val := Elt Ideal) v : IVec S100000 1) = v := rfl
theorem ofBuf_v12 (v : IVec S100000 1) : ((TRef.of main_v12 : TRef sig ⟨S100000, .i1⟩).ofBuf (Val := Elt Ideal) v : IVec S100000 1) = v := rfl
theorem toBuf_call0_v1 (v : FVec Ideal S100000 .f32) : ((TRef.of main_call0_v1 : TRef sig ⟨S100000, .f32⟩).toBuf (Val := Elt Ideal) v : FVec Ideal S100000 .f32) = v := rfl
theorem ofBuf_call0_v1 (v : FVec Ideal S100000 .f32) : ((TRef.of main_call0_v1 : TRef sig ⟨S100000, .f32⟩).ofBuf (Val := Elt Ideal) v : FVec Ideal S100000 .f32) = v := rfl
theorem toBuf_call0_v0 (v : FVec Ideal S_ .f32) : ((TRef.of main_call0_v0 : TRef sig ⟨S_, .f32⟩).toBuf (Val := Elt Ideal) v : FVec Ideal S_ .f32) = v := rfl
theorem ofBuf_call0_v0 (v : FVec Ideal S_ .f32) : ((TRef.of main_call0_v0 : TRef sig ⟨S_, .f32⟩).ofBuf (Val := Elt Ideal) v : FVec Ideal S_ .f32) = v := rfl
theorem toBuf_cst_2 (v : FVec Ideal S_ .f32) : ((TRef.of main_cst_2 : TRef sig ⟨S_, .f32⟩).toBuf (Val := Elt Ideal) v : FVec Ideal S_ .f32) = v := rfl
theorem ofBuf_cst_2 (v : FVec Ideal S_ .f32) : ((TRef.of main_cst_2 : TRef sig ⟨S_, .f32⟩).ofBuf (Val := Elt Ideal) v : FVec Ideal S_ .f32) = v := rfl

theorem ops01_v14
    (h12 : W (Proc.devRef .tc main_v12)
      = cmpf .ogt (K.deg E) (broadcastInDim S100000 ![] bcast_S_S100000 (constant (F := Ideal) S_ .f32 0x00000000#32)))
    (h13 : W (Proc.devRef .tc main_v13) = Host.rsqrt (F := Ideal) (K.deg E))
    (hc : W (Proc.devRef .tc main_cst_2) = constant (F := Ideal) S_ .f32 0x00000000#32) :
    after (hostOps0_1 (F := Ideal)) W (Proc.devRef .tc main_v14) = K.dinv E := by
  simp only [hostOps0_1]; after_results
  rw [toBuf_v14, ofBuf_v12, ofBuf_v13, ofBuf_call0_v1, toBuf_call0_v1, ofBuf_call0_v0, toBuf_call0_v0, ofBuf_cst_2, h12, h13, hc]
  rfl

/-! ## The third stretch: the weight of every edge -/

theorem ops02_v29 (h3 : W (Proc.devRef .tc main_v3) = K.src E) (h6 : W (Proc.devRef .tc main_v6) = K.dst E)
    (h14 : W (Proc.devRef .tc main_v14) = K.dinv E) :
    after (hostOps0_2 (F := Ideal)) W (Proc.devRef .tc main_v29) = K.norm E := by
  simp only [hostOps0_2]; after_results_simp; rw [h3, h6, h14]; rfl

/-! ## The stretches between the dense stages: one aggregation each, and the bias kept as a row -/

theorem ops1_v43 (h : FVec Ideal S100000x16 .f32) (h3 : W (Proc.devRef .tc main_v3) = K.src E) (h6 : W (Proc.devRef .tc main_v6) = K.dst E)
    (h29 : W (Proc.devRef .tc main_v29) = K.norm E) (h30 : W (Proc.devRef .tc main_v30) = h) :
    after (hostOps1 (F := Ideal)) W (Proc.devRef .tc main_v43) = K.agg E h := by
  simp only [hostOps1]; after_results_simp; rw [h3, h6, h29, h30]; rfl

theorem ops1_v44 :
    after (hostOps1 (F := Ideal)) W (Proc.devRef .tc main_v44) = shapeCast _ (W (Proc.devRef .tc main_arg3)) shapeCasts_S16_S1x16 := by
  simp only [hostOps1]; after_results; rfl

theorem ops2_v58 (h : FVec Ideal S100000x16 .f32) (h3 : W (Proc.devRef .tc main_v3) = K.src E) (h6 : W (Proc.devRef .tc main_v6) = K.dst E)
    (h29 : W (Proc.devRef .tc main_v29) = K.norm E) (h45 : W (Proc.devRef .tc main_v45) = h) :
    after (hostOps2 (F := Ideal)) W (Proc.devRef .tc main_v58) = K.agg E h := by
  simp only [hostOps2]; after_results_simp; rw [h3, h6, h29, h45]; rfl

theorem ops2_v59 :
    after (hostOps2 (F := Ideal)) W (Proc.devRef .tc main_v59) = shapeCast _ (W (Proc.devRef .tc main_arg5)) shapeCasts_S128_S1x128 := by
  simp only [hostOps2]; after_results; rfl

/-! ## What each stretch leaves alone -/

theorem keep_0_arg0 : after (hostOps0 (F := Ideal)) W (Proc.devRef .tc main_arg0) = W (Proc.devRef .tc main_arg0) := by after_keeps hostOps0
theorem keep_0_arg2 : after (hostOps0 (F := Ideal)) W (Proc.devRef .tc main_arg2) = W (Proc.devRef .tc main_arg2) := by after_keeps hostOps0
theorem keep_0_arg3 : after (hostOps0 (F := Ideal)) W (Proc.devRef .tc main_arg3) = W (Proc.devRef .tc main_arg3) := by after_keeps hostOps0
theorem keep_0_arg4 : after (hostOps0 (F := Ideal)) W (Proc.devRef .tc main_arg4) = W (Proc.devRef .tc main_arg4) := by after_keeps hostOps0
theorem keep_0_arg5 : after (hostOps0 (F := Ideal)) W (Proc.devRef .tc main_arg5) = W (Proc.devRef .tc main_arg5) := by after_keeps hostOps0
theorem keep_0_1_arg0 : after (hostOps0_1 (F := Ideal)) W (Proc.devRef .tc main_arg0) = W (Proc.devRef .tc main_arg0) := by after_keeps hostOps0_1
theorem keep_0_1_arg2 : after (hostOps0_1 (F := Ideal)) W (Proc.devRef .tc main_arg2) = W (Proc.devRef .tc main_arg2) := by after_keeps hostOps0_1
theorem keep_0_1_arg3 : after (hostOps0_1 (F := Ideal)) W (Proc.devRef .tc main_arg3) = W (Proc.devRef .tc main_arg3) := by after_keeps hostOps0_1
theorem keep_0_1_arg4 : after (hostOps0_1 (F := Ideal)) W (Proc.devRef .tc main_arg4) = W (Proc.devRef .tc main_arg4) := by after_keeps hostOps0_1
theorem keep_0_1_arg5 : after (hostOps0_1 (F := Ideal)) W (Proc.devRef .tc main_arg5) = W (Proc.devRef .tc main_arg5) := by after_keeps hostOps0_1
theorem keep_0_1_v3 : after (hostOps0_1 (F := Ideal)) W (Proc.devRef .tc main_v3) = W (Proc.devRef .tc main_v3) := by after_keeps hostOps0_1
theorem keep_0_1_v6 : after (hostOps0_1 (F := Ideal)) W (Proc.devRef .tc main_v6) = W (Proc.devRef .tc main_v6) := by after_keeps hostOps0_1
theorem keep_0_2_arg0 : after (hostOps0_2 (F := Ideal)) W (Proc.devRef .tc main_arg0) = W (Proc.devRef .tc main_arg0) := by after_keeps hostOps0_2
theorem keep_0_2_arg2 : after (hostOps0_2 (F := Ideal)) W (Proc.devRef .tc main_arg2) = W (Proc.devRef .tc main_arg2) := by after_keeps hostOps0_2
theorem keep_0_2_arg3 : after (hostOps0_2 (F := Ideal)) W (Proc.devRef .tc main_arg3) = W (Proc.devRef .tc main_arg3) := by after_keeps hostOps0_2
theorem keep_0_2_arg4 : after (hostOps0_2 (F := Ideal)) W (Proc.devRef .tc main_arg4) = W (Proc.devRef .tc main_arg4) := by after_keeps hostOps0_2
theorem keep_0_2_arg5 : after (hostOps0_2 (F := Ideal)) W (Proc.devRef .tc main_arg5) = W (Proc.devRef .tc main_arg5) := by after_keeps hostOps0_2
theorem keep_0_2_v3 : after (hostOps0_2 (F := Ideal)) W (Proc.devRef .tc main_v3) = W (Proc.devRef .tc main_v3) := by after_keeps hostOps0_2
theorem keep_0_2_v6 : after (hostOps0_2 (F := Ideal)) W (Proc.devRef .tc main_v6) = W (Proc.devRef .tc main_v6) := by after_keeps hostOps0_2
theorem keep_1_arg4 : after (hostOps1 (F := Ideal)) W (Proc.devRef .tc main_arg4) = W (Proc.devRef .tc main_arg4) := by after_keeps hostOps1
theorem keep_1_arg5 : after (hostOps1 (F := Ideal)) W (Proc.devRef .tc main_arg5) = W (Proc.devRef .tc main_arg5) := by after_keeps hostOps1
theorem keep_1_v3 : after (hostOps1 (F := Ideal)) W (Proc.devRef .tc main_v3) = W (Proc.devRef .tc main_v3) := by after_keeps hostOps1
theorem keep_1_v6 : after (hostOps1 (F := Ideal)) W (Proc.devRef .tc main_v6) = W (Proc.devRef .tc main_v6) := by after_keeps hostOps1
theorem keep_1_v29 : after (hostOps1 (F := Ideal)) W (Proc.devRef .tc main_v29) = W (Proc.devRef .tc main_v29) := by after_keeps hostOps1
theorem keep_2_arg4 : after (hostOps2 (F := Ideal)) W (Proc.devRef .tc main_arg4) = W (Proc.devRef .tc main_arg4) := by after_keeps hostOps2

end Cert.Gcn

end
-- ==== Proof.KernelRunWalk.lean ====
/-
  The contents of the result array at the last boundary of the kernel's program, walked back to the launch memory:
  the three dense stages by what each region leaves in its output array, the stretches of host operations between
  them by the operations' own terms, the buffers a stage does not write carried through unchanged.
-/
import proofs.«129788_j32727650795996_2_alg».proof.Proof.KTerm
import proofs.«129788_j32727650795996_2_alg».proof.Proof.Region0
import proofs.«129788_j32727650795996_2_alg».proof.Proof.Region1
import proofs.«129788_j32727650795996_2_alg».proof.Proof.Region2
import proofs.«129788_j32727650795996_2_alg».proof.Proof.Gen.KernelIdeal.Frame
import proofs.«129788_j32727650795996_2_alg».proof.Proof.KernelRunOps
import Idealize.ShloMosaic.Lib.StableHlo.Run

noncomputable section

namespace Cert.Gcn

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! ## After the first stretch -/

theorem W1_v3 : W1 (F := Ideal) m ρ c (Proc.devRef .tc main_v3) = K.src (m ((c.tc : Thread nD τ).loc main_arg1)) := ops0_v3 (W0 m ρ c) _ rfl
theorem W1_v6 : W1 (F := Ideal) m ρ c (Proc.devRef .tc main_v6) = K.dst (m ((c.tc : Thread nD τ).loc main_arg1)) := ops0_v6 (W0 m ρ c) _ rfl
theorem W1_v12 : W1 (F := Ideal) m ρ c (Proc.devRef .tc main_v12)
    = cmpf .ogt (K.deg (m ((c.tc : Thread nD τ).loc main_arg1))) (broadcastInDim S100000 ![] bcast_S_S100000 (constant (F := Ideal) S_ .f32 0x00000000#32)) :=
  ops0_v12 (W0 m ρ c) _ rfl
theorem W1_v13 : W1 (F := Ideal) m ρ c (Proc.devRef .tc main_v13) = Host.rsqrt (F := Ideal) (K.deg (m ((c.tc : Thread nD τ).loc main_arg1))) := ops0_v13 (W0 m ρ c) _ rfl
theorem W1_cst_2 : W1 (F := Ideal) m ρ c (Proc.devRef .tc main_cst_2) = constant (F := Ideal) S_ .f32 0x00000000#32 := ops0_cst_2 (W0 m ρ c)
theorem W1_arg0 : W1 (F := Ideal) m ρ c (Proc.devRef .tc main_arg0) = (m ((c.tc : Thread nD τ).loc main_arg0)) := keep_0_arg0 (W0 m ρ c)
theorem W1_arg2 : W1 (F := Ideal) m ρ c (Proc.devRef .tc main_arg2) = (m ((c.tc : Thread nD τ).loc main_arg2)) := keep_0_arg2 (W0 m ρ c)
theorem W1_arg3 : W1 (F := Ideal) m ρ c (Proc.devRef .tc main_arg3) = (m ((c.tc : Thread nD τ).loc main_arg3)) := keep_0_arg3 (W0 m ρ c)
theorem W1_arg4 : W1 (F := Ideal) m ρ c (Proc.devRef .tc main_arg4) = (m ((c.tc : Thread nD τ).loc main_arg4)) := keep_0_arg4 (W0 m ρ c)
theorem W1_arg5 : W1 (F := Ideal) m ρ c (Proc.devRef .tc main_arg5) = (m ((c.tc : Thread nD τ).loc main_arg5)) := keep_0_arg5 (W0 m ρ c)

/-! ## After the outlined selection -/

theorem W2_v14 : W2 (F := Ideal) m ρ c (Proc.devRef .tc main_v14) = K.dinv (m ((c.tc : Thread nD τ).loc main_arg1)) :=
  ops01_v14 (W1 m ρ c) _ (W1_v12 m ρ c) (W1_v13 m ρ c) (W1_cst_2 m ρ c)
theorem W2_v3 : W2 (F := Ideal) m ρ c (Proc.devRef .tc main_v3) = K.src (m ((c.tc : Thread nD τ).loc main_arg1)) := (keep_0_1_v3 (W1 m ρ c)).trans (W1_v3 m ρ c)
theorem W2_v6 : W2 (F := Ideal) m ρ c (Proc.devRef .tc main_v6) = K.dst (m ((c.tc : Thread nD τ).loc main_arg1)) := (keep_0_1_v6 (W1 m ρ c)).trans (W1_v6 m ρ c)
theorem W2_arg0 : W2 (F := Ideal) m ρ c (Proc.devRef .tc main_arg0) = (m ((c.tc : Thread nD τ).loc main_arg0)) := (keep_0_1_arg0 (W1 m ρ c)).trans (W1_arg0 m ρ c)
theorem W2_arg2 : W2 (F := Ideal) m ρ c (Proc.devRef .tc main_arg2) = (m ((c.tc : Thread nD τ).loc main_arg2)) := (keep_0_1_arg2 (W1 m ρ c)).trans (W1_arg2 m ρ c)
theorem W2_arg3 : W2 (F := Ideal) m ρ c (Proc.devRef .tc main_arg3) = (m ((c.tc : Thread nD τ).loc main_arg3)) := (keep_0_1_arg3 (W1 m ρ c)).trans (W1_arg3 m ρ c)
theorem W2_arg4 : W2 (F := Ideal) m ρ c (Proc.devRef .tc main_arg4) = (m ((c.tc : Thread nD τ).loc main_arg4)) := (keep_0_1_arg4 (W1 m ρ c)).trans (W1_arg4 m ρ c)
theorem W2_arg5 : W2 (F := Ideal) m ρ c (Proc.devRef .tc main_arg5) = (m ((c.tc : Thread nD τ).loc main_arg5)) := (keep_0_1_arg5 (W1 m ρ c)).trans (W1_arg5 m ρ c)

/-! ## At the entry of the first dense stage -/

theorem W3_v29 : W3 (F := Ideal) m ρ c (Proc.devRef .tc main_v29) = K.norm (m ((c.tc : Thread nD τ).loc main_arg1)) :=
  ops02_v29 (W2 m ρ c) _ (W2_v3 m ρ c) (W2_v6 m ρ c) (W2_v14 m ρ c)
theorem W3_v3 : W3 (F := Ideal) m ρ c (Proc.devRef .tc main_v3) = K.src (m ((c.tc : Thread nD τ).loc main_arg1)) := (keep_0_2_v3 (W2 m ρ c)).trans (W2_v3 m ρ c)
theorem W3_v6 : W3 (F := Ideal) m ρ c (Proc.devRef .tc main_v6) = K.dst (m ((c.tc : Thread nD τ).loc main_arg1)) := (keep_0_2_v6 (W2 m ρ c)).trans (W2_v6 m ρ c)
theorem W3_arg0 : W3 (F := Ideal) m ρ c (Proc.devRef .tc main_arg0) = (m ((c.tc : Thread nD τ).loc main_arg0)) := (keep_0_2_arg0 (W2 m ρ c)).trans (W2_arg0 m ρ c)
theorem W3_arg2 : W3 (F := Ideal) m ρ c (Proc.devRef .tc main_arg2) = (m ((c.tc : Thread nD τ).loc main_arg2)) := (keep_0_2_arg2 (W2 m ρ c)).trans (W2_arg2 m ρ c)
theorem W3_arg3 : W3 (F := Ideal) m ρ c (Proc.devRef .tc main_arg3) = (m ((c.tc : Thread nD τ).loc main_arg3)) := (keep_0_2_arg3 (W2 m ρ c)).trans (W2_arg3 m ρ c)
theorem W3_arg4 : W3 (F := Ideal) m ρ c (Proc.devRef .tc main_arg4) = (m ((c.tc : Thread nD τ).loc main_arg4)) := (keep_0_2_arg4 (W2 m ρ c)).trans (W2_arg4 m ρ c)
theorem W3_arg5 : W3 (F := Ideal) m ρ c (Proc.devRef .tc main_arg5) = (m ((c.tc : Thread nD τ).loc main_arg5)) := (keep_0_2_arg5 (W2 m ρ c)).trans (W2_arg5 m ρ c)

/-! ## At its exit: x · W1 in its output array, every other buffer as entered -/

theorem W4_v30 : W4 (F := Ideal) m ρ c (Proc.devRef .tc main_v30) = G0 (m ((c.tc : Thread nD τ).loc main_arg0)) (m ((c.tc : Thread nD τ).loc main_arg2)) :=
  (W4_arr m ρ c 2).trans ((region0_array (V3 m ρ) c).trans (congrArg₂ G0 (W3_arg0 m ρ c) (W3_arg2 m ρ c)))
theorem W4_v3 : W4 (F := Ideal) m ρ c (Proc.devRef .tc main_v3) = K.src (m ((c.tc : Thread nD τ).loc main_arg1)) := (W4_of_ne m ρ c main_v3 (by decide)).trans (W3_v3 m ρ c)
theorem W4_v6 : W4 (F := Ideal) m ρ c (Proc.devRef .tc main_v6) = K.dst (m ((c.tc : Thread nD τ).loc main_arg1)) := (W4_of_ne m ρ c main_v6 (by decide)).trans (W3_v6 m ρ c)
theorem W4_v29 : W4 (F := Ideal) m ρ c (Proc.devRef .tc main_v29) = K.norm (m ((c.tc : Thread nD τ).loc main_arg1)) := (W4_of_ne m ρ c main_v29 (by decide)).trans (W3_v29 m ρ c)
theorem W4_arg3 : W4 (F := Ideal) m ρ c (Proc.devRef .tc main_arg3) = (m ((c.tc : Thread nD τ).loc main_arg3)) := (W4_of_ne m ρ c main_arg3 (by decide)).trans (W3_arg3 m ρ c)
theorem W4_arg4 : W4 (F := Ideal) m ρ c (Proc.devRef .tc main_arg4) = (m ((c.tc : Thread nD τ).loc main_arg4)) := (W4_of_ne m ρ c main_arg4 (by decide)).trans (W3_arg4 m ρ c)
theorem W4_arg5 : W4 (F := Ideal) m ρ c (Proc.devRef .tc main_arg5) = (m ((c.tc : Thread nD τ).loc main_arg5)) := (W4_of_ne m ρ c main_arg5 (by decide)).trans (W3_arg5 m ρ c)

/-! ## At the entry of the second dense stage: the first aggregation, the bias as a row -/

theorem W5_v43 : W5 (F := Ideal) m ρ c (Proc.devRef .tc main_v43) = K.agg (m ((c.tc : Thread nD τ).loc main_arg1)) (G0 (m ((c.tc : Thread nD τ).loc main_arg0)) (m ((c.tc : Thread nD τ).loc main_arg2))) :=
  ops1_v43 (W4 m ρ c) _ _ (W4_v3 m ρ c) (W4_v6 m ρ c) (W4_v29 m ρ c) (W4_v30 m ρ c)
theorem W5_v44 : W5 (F := Ideal) m ρ c (Proc.devRef .tc main_v44) = shapeCast _ (m ((c.tc : Thread nD τ).loc main_arg3)) shapeCasts_S16_S1x16 :=
  (ops1_v44 (W4 m ρ c)).trans (congrArg (fun b => shapeCast _ b shapeCasts_S16_S1x16) (W4_arg3 m ρ c))
theorem W5_v3 : W5 (F := Ideal) m ρ c (Proc.devRef .tc main_v3) = K.src (m ((c.tc : Thread nD τ).loc main_arg1)) := (keep_1_v3 (W4 m ρ c)).trans (W4_v3 m ρ c)
theorem W5_v6 : W5 (F := Ideal) m ρ c (Proc.devRef .tc main_v6) = K.dst (m ((c.tc : Thread nD τ).loc main_arg1)) := (keep_1_v6 (W4 m ρ c)).trans (W4_v6 m ρ c)
theorem W5_v29 : W5 (F := Ideal) m ρ c (Proc.devRef .tc main_v29) = K.norm (m ((c.tc : Thread nD τ).loc main_arg1)) := (keep_1_v29 (W4 m ρ c)).trans (W4_v29 m ρ c)
theorem W5_arg4 : W5 (F := Ideal) m ρ c (Proc.devRef .tc main_arg4) = (m ((c.tc : Thread nD τ).loc main_arg4)) := (keep_1_arg4 (W4 m ρ c)).trans (W4_arg4 m ρ c)
theorem W5_arg5 : W5 (F := Ideal) m ρ c (Proc.devRef .tc main_arg5) = (m ((c.tc : Thread nD τ).loc main_arg5)) := (keep_1_arg5 (W4 m ρ c)).trans (W4_arg5 m ρ c)

/-! ## At its exit: the rectified biased rows in its output array -/

theorem W6_v45 : W6 (F := Ideal) m ρ c (Proc.devRef .tc main_v45) = G1 (K.agg (m ((c.tc : Thread nD τ).loc main_arg1)) (G0 (m ((c.tc : Thread nD τ).loc main_arg0)) (m ((c.tc : Thread nD τ).loc main_arg2)))) (shapeCast _ (m ((c.tc : Thread nD τ).loc main_arg3)) shapeCasts_S16_S1x16) :=
  (W6_arr m ρ c 2).trans ((region1_array (V5 m ρ) c).trans (congrArg₂ G1 (W5_v43 m ρ c) (W5_v44 m ρ c)))
theorem W6_v3 : W6 (F := Ideal) m ρ c (Proc.devRef .tc main_v3) = K.src (m ((c.tc : Thread nD τ).loc main_arg1)) := (W6_of_ne m ρ c main_v3 (by decide)).trans (W5_v3 m ρ c)
theorem W6_v6 : W6 (F := Ideal) m ρ c (Proc.devRef .tc main_v6) = K.dst (m ((c.tc : Thread nD τ).loc main_arg1)) := (W6_of_ne m ρ c main_v6 (by decide)).trans (W5_v6 m ρ c)
theorem W6_v29 : W6 (F := Ideal) m ρ c (Proc.devRef .tc main_v29) = K.norm (m ((c.tc : Thread nD τ).loc main_arg1)) := (W6_of_ne m ρ c main_v29 (by decide)).trans (W5_v29 m ρ c)
theorem W6_arg4 : W6 (F := Ideal) m ρ c (Proc.devRef .tc main_arg4) = (m ((c.tc : Thread nD τ).loc main_arg4)) := (W6_of_ne m ρ c main_arg4 (by decide)).trans (W5_arg4 m ρ c)
theorem W6_arg5 : W6 (F := Ideal) m ρ c (Proc.devRef .tc main_arg5) = (m ((c.tc : Thread nD τ).loc main_arg5)) := (W6_of_ne m ρ c main_arg5 (by decide)).trans (W5_arg5 m ρ c)

/-! ## At the entry of the third dense stage: the second aggregation, the second bias as a row -/

theorem W7_v58 : W7 (F := Ideal) m ρ c (Proc.devRef .tc main_v58) = K.agg (m ((c.tc : Thread nD τ).loc main_arg1)) (G1 (K.agg (m ((c.tc : Thread nD τ).loc main_arg1)) (G0 (m ((c.tc : Thread nD τ).loc main_arg0)) (m ((c.tc : Thread nD τ).loc main_arg2)))) (shapeCast _ (m ((c.tc : Thread nD τ).loc main_arg3)) shapeCasts_S16_S1x16)) :=
  ops2_v58 (W6 m ρ c) _ _ (W6_v3 m ρ c) (W6_v6 m ρ c) (W6_v29 m ρ c) (W6_v45 m ρ c)
theorem W7_v59 : W7 (F := Ideal) m ρ c (Proc.devRef .tc main_v59) = shapeCast _ (m ((c.tc : Thread nD τ).loc main_arg5)) shapeCasts_S128_S1x128 :=
  (ops2_v59 (W6 m ρ c)).trans (congrArg (fun b => shapeCast _ b shapeCasts_S128_S1x128) (W6_arg5 m ρ c))
theorem W7_arg4 : W7 (F := Ideal) m ρ c (Proc.devRef .tc main_arg4) = (m ((c.tc : Thread nD τ).loc main_arg4)) := (keep_2_arg4 (W6 m ρ c)).trans (W6_arg4 m ρ c)

/-! ## The result -/

/-- At the last boundary the result array holds the whole network applied to the six argument arrays as launched. -/
theorem W8_result : W8 (F := Ideal) m ρ c (Proc.devRef .tc main_v60)
    = K.out (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W8_arr m ρ c 3).trans ((region2_array (V7 m ρ) c).trans
    (congr (congrArg₂ G2 (W7_v58 m ρ c) (W7_arg4 m ρ c)) (W7_v59 m ρ c)))

end Cert.Gcn

end
-- ==== Proof.KernelRun.lean ====
/-
  The kernel's program, run from any launch memory: it terminates, its result array is the two-layer graph
  convolution K.out of the six argument arrays as launched, and the argument arrays are unchanged.  The run with
  the result read at the last boundary's contents, and those contents walked back to the launch memory.
-/
import proofs.«129788_j32727650795996_2_alg».proof.Proof.KernelRunKit
import proofs.«129788_j32727650795996_2_alg».proof.Proof.KernelRunWalk

noncomputable section

namespace Cert.Gcn

open Idealize.ShloMosaic Idealize.ShloMosaic.TcCoe Idealize.SL.Sem
open Cert.KernelIdeal Cert.KernelIdeal.Gen

theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v60)
        = K.out (m ((c.tc : Thread nD τ).loc main_arg1)) (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (W8_result m ρ c), (h c).2⟩) (run_at_W8 m ρ)

end Cert.Gcn

end
-- ==== Proof.RTerm.lean ====
/-
  The graph convolution as the reference program spells it.  The sparse part is the kernel's: the source and
  destination lists with self loops, the in-degree, its inverse square root, the edge weights, and the aggregation
  agg h = segment_sum (h[src] · norm, dst), here of a [100000, 16] array (layer 1) and of a [100000, 128] array
  (layer 2, after the product with W2).  The whole network is
      agg₁₂₈ (relu (agg₁₆ (x W1) + b1) · W2) + b2 .
-/
import proofs.«129788_j32727650795996_2_alg».proof.ReferenceIdeal
import Idealize.ShloMosaic.PureOps.Ideal

noncomputable section

namespace Cert.Gcn.R

open Idealize.ShloMosaic Cert.ReferenceIdeal Cert.ReferenceIdeal.Facts₀ Cert.ReferenceIdeal.Facts

variable [Cert.ReferenceIdeal.Facts] (E : IVec S2x1600000 32)

/-- Row 0 of the edge table followed by 0, 1, …, 99999 (the self loops). -/
def src : IVec S1700000 32 :=
  concatenate S1700000 0 [⟨S1600000, shapeCast _ (extractStridedSlice S1x1600000 ![0, 0] E slices_S2x1600000_S1x1600000_0_0) shapeCasts_S1x1600000_S1600000⟩,
    ⟨S100000, iotaInDim S100000 32 0⟩] concatenates_S1600000_S100000_S1700000_d0

/-- Row 1 of the edge table followed by the self loops. -/
def dst : IVec S1700000 32 :=
  concatenate S1700000 0 [⟨S1600000, shapeCast _ (extractStridedSlice S1x1600000 ![1, 0] E slices_S2x1600000_S1x1600000_1_0) shapeCasts_S1x1600000_S1600000⟩,
    ⟨S100000, iotaInDim S100000 32 0⟩] concatenates_S1600000_S100000_S1700000_d0

/-- A negative word is moved up by 100000 before it is used to take an entry. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A list of words kept as a column [1700000, 1]. -/
def col (v : IVec S1700000 32) : IVec S1700000x1 32 :=
  broadcastInDim S1700000x1 ![0] bcast_S1700000_S1700000x1_0 v

/-- The in-degree: ones accumulated at the destination words. -/
def deg : FVec Ideal S100000 .f32 :=
  Host.scatterAdd (F := Ideal) scatter_S100000_S1700000x1_S1700000_n_0_0_1
    (broadcastInDim S100000 ![] bcast_S_S100000 (constant (F := Ideal) S_ .f32 0x00000000#32))
    (col (dst E))
    (broadcastInDim S1700000 ![] bcast_S_S1700000 (constant (F := Ideal) S_ .f32 0x3F800000#32))

/-- deg^(-1/2) where deg > 0, else 0. -/
def dinv : FVec Ideal S100000 .f32 :=
  select (cmpf .ogt (deg E) (broadcastInDim S100000 ![] bcast_S_S100000 (constant (F := Ideal) S_ .f32 0x00000000#32)))
    (Host.rsqrt (F := Ideal) (deg E))
    (broadcastInDim S100000 ![] bcast_S_S100000 (id (constant (F := Ideal) S_ .f32 0x00000000#32)))

/-- The weight of edge e: dinv at its source times dinv at its destination. -/
def norm : FVec Ideal S1700000 .f32 :=
  mulf (Host.gather gather_S100000_S1700000x1_S1700000_n_0_n_n_0_1_1 (dinv E) (col (wrap (src E))))
    (Host.gather gather_S100000_S1700000x1_S1700000_n_0_n_n_0_1_1 (dinv E) (col (wrap (dst E))))

/-- Layer 1's aggregation, of a [100000, 16] array. -/
def agg16 (h : FVec Ideal S100000x16 .f32) : FVec Ideal S100000x16 .f32 :=
  Host.scatterAdd (F := Ideal) scatter_S100000x16_S1700000x1_S1700000x16_1_0_0_1
    (broadcastInDim S100000x16 ![] bcast_S_S100000x16 (constant (F := Ideal) S_ .f32 0x00000000#32))
    (col (dst E))
    (mulf (Host.gather gather_S100000x16_S1700000x1_S1700000x16_1_0_n_n_0_1_116 h (col (wrap (src E))))
      (broadcastInDim S1700000x16 ![0, 1] bcast_S1700000x1_S1700000x16_0_1
        (broadcastInDim S1700000x1 ![0] bcast_S1700000_S1700000x1_0 (norm E))))

/-- Layer 2's aggregation, of a [100000, 128] array. -/
def agg128 (h : FVec Ideal S100000x128 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (col (dst E))
    (mulf (Host.gather gather_S100000x128_S1700000x1_S1700000x128_1_0_n_n_0_1_1128 h (col (wrap (src E))))
      (broadcastInDim S1700000x128 ![0, 1] bcast_S1700000x1_S1700000x128_0_1
        (broadcastInDim S1700000x1 ![0] bcast_S1700000_S1700000x1_0 (norm E))))

/-- Layer 1's output: relu (agg₁₆ (x W1) + b1). -/
def hidden (x : FVec Ideal S100000x128 .f32) (W1 : FVec Ideal S128x16 .f32) (b1 : FVec Ideal S16 .f32) :
    FVec Ideal S100000x16 .f32 :=
  maximumf
    (addf (agg16 E (Host.dotGeneral (F := Ideal) dot_S100000x128_S128x16_S100000x16_1_0_0_1_n_n none x W1))
      (broadcastInDim S100000x16 ![0, 1] bcast_S1x16_S100000x16_0_1 (broadcastInDim S1x16 ![1] bcast_S16_S1x16_1 b1)))
    (broadcastInDim S100000x16 ![] bcast_S_S100000x16 (constant (F := Ideal) S_ .f32 0x00000000#32))

/-- The reference's result as a function of its six argument arrays. -/
def out (x : FVec Ideal S100000x128 .f32) (W1 : FVec Ideal S128x16 .f32) (b1 : FVec Ideal S16 .f32)
    (W2 : FVec Ideal S16x128 .f32) (b2 : FVec Ideal S128 .f32) : FVec Ideal S100000x128 .f32 :=
  addf
    (agg128 E (Host.dotGeneral (F := Ideal) dot_S100000x16_S16x128_S100000x128_1_0_0_1_n_n none (hidden E x W1 b1) W2))
    (broadcastInDim S100000x128 ![0, 1] bcast_S1x128_S100000x128_0_1 (broadcastInDim S1x128 ![1] bcast_S128_S1x128_1 b2))

end Cert.Gcn.R

end
-- ==== Proof.RefRun.lean ====
/-
  The reference program's run, with its result array as one term of the six argument arrays.

  The reference's @main is a straight line of 116 array operations; after it has run, each buffer holds the fold of the
  operations' results over the launch contents. The fold is evaluated in fifteen consecutive stretches that follow the
  program's own structure: the source and destination words (the two rows of the edge table, each followed by the
  self loops); x · W1; the in-degree and its inverse square root; that array taken at the source and at the destination
  words, whose product is the edge weight; layer 1's aggregation (rows taken at the source words, scaled by the weights,
  accumulated at the destination words); the bias and the maximum with 0; the product with W2; the degree and the
  weights once more (the program computes them a second time, by the same operations on the same words, so they are
  the same term); layer 2's aggregation; the second bias. For each stretch and an ARBITRARY valuation of the buffers
  two kinds of fact are proved: what the stretch leaves in the buffer a later stretch reads, as the stretch's
  operations applied to what the valuation holds in the buffers it reads; and that a buffer the stretch does not
  write keeps its contents. Chaining these from the launch contents gives the result buffer as
      agg₁₂₈ (relu (agg₁₆ (x W1) + b1) · W2) + b2 ,
  the term R.out of the six arguments, and every argument buffer unchanged.

  Three groups of the program's operations are the bodies of called functions (the two selects of the inverse square
  root and the maximum with 0), which the program spells over references that carry their array type; here they are
  spelt over the bare references, which is the same operation (the carried type is the reference's own).
-/
import proofs.«129788_j32727650795996_2_alg».proof.Proof.RefOps
import proofs.«129788_j32727650795996_2_alg».proof.Proof.RTerm
import Idealize.ShloMosaic.Lib.StableHlo.Run

noncomputable section

namespace Cert.Gcn

open Cert.ReferenceIdeal Cert.ReferenceIdeal.Gen Idealize.ShloMosaic Idealize.ShloMosaic.TcCoe Idealize.SL.Sem Idealize.ShloMosaic.StableHlo

/-- The fold over two lists in a row is the fold over the second started from the fold over the first. -/
theorem after_app {τ' : Topo} {sig' : RefSig} {Val : EltTy → Type} :
    ∀ (l₁ l₂ : List (HloOp τ' sig' Val)) (V : Valuation τ' sig' Val), after (l₁ ++ l₂) V = after l₂ (after l₁ V)
  | [], _, _ => rfl
  | op :: l₁, l₂, V => by rw [List.cons_append, after_cons, after_cons, after_app l₁ l₂]

/-! ## The fifteen stretches -/

section Stretches

variable {F : FTy → Type} [FloatOps F]

/-- Operations %0–%6: the two rows of the edge table, each followed by the self loops 0, …, 99999. -/
abbrev cA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The buffers these operations write. -/
abbrev cA_W : List (Ref sig .tc) := [main_v0, main_v1, main_v2, main_v3, main_v4, main_v5, main_v6]
theorem cA_writes : (cA : List (HloOp τ sig (Elt F))).Forall fun op => op.writes ⊆ (cA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cA_keep (W : Valuation τ sig (Elt F)) (r : Ref sig .tc) (h : r ∉ cA_W) :
    after cA W (Proc.devRef .tc r) = W (Proc.devRef .tc r) :=
  after_of_writes_sub cA _ cA_writes h

/-- Operation %7: the first layer's product x · W1. -/
abbrev cB : List (HloOp τ sig (Elt F)) :=
  [ binary main_arg0 main_arg2 main_v7 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)) ]
/-- The buffers these operations write. -/
abbrev cB_W : List (Ref sig .tc) := [main_v7]
theorem cB_writes : (cB : List (HloOp τ sig (Elt F))).Forall fun op => op.writes ⊆ (cB_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
/-- A buffer none of them writes keeps its contents. -/
theorem cB_keep (W : Valuation τ sig (Elt F)) (r : Ref sig .tc) (h : r ∉ cB_W) :
    after cB W (Proc.devRef .tc r) = W (Proc.devRef .tc r) :=
  after_of_writes_sub cB _ cB_writes h

/-- Operations %cst–%15: the in-degree (ones accumulated at the destination words) and its inverse square root where positive, else 0. -/
abbrev cC : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v13 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]
/-- The buffers these operations write. -/
abbrev cC_W : List (Ref sig .tc) := [main_cst, main_v8, main_cst_0, main_v9, main_v10, main_v11, main_cst_1, main_v12, main_v13, main_v14, main_cst_2, main_call0_v0, main_call0_v1, main_v15]
theorem cC_writes : (cC : List (HloOp τ sig (Elt F))).Forall fun op => op.writes ⊆ (cC_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cC_keep (W : Valuation τ sig (Elt F)) (r : Ref sig .tc) (h : r ∉ cC_W) :
    after cC W (Proc.devRef .tc r) = W (Proc.devRef .tc r) :=
  after_of_writes_sub cC _ cC_writes h

/-- Operations %c–%22: the inverse square root of the degree taken at the (wrapped) source words. -/
abbrev cD : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ]
/-- The buffers these operations write. -/
abbrev cD_W : List (Ref sig .tc) := [main_c, main_v16, main_v17, main_c_3, main_v18, main_v19, main_v20, main_v21, main_v22]
theorem cD_writes : (cD : List (HloOp τ sig (Elt F))).Forall fun op => op.writes ⊆ (cD_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cD_keep (W : Valuation τ sig (Elt F)) (r : Ref sig .tc) (h : r ∉ cD_W) :
    after cD W (Proc.devRef .tc r) = W (Proc.devRef .tc r) :=
  after_of_writes_sub cD _ cD_writes h

/-- Operations %c_4–%30: the same taken at the (wrapped) destination words, and the product of the two: the edge weights. -/
abbrev cE : List (HloOp τ sig (Elt F)) :=
  [ nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]
/-- The buffers these operations write. -/
abbrev cE_W : List (Ref sig .tc) := [main_c_4, main_v23, main_v24, main_c_5, main_v25, main_v26, main_v27, main_v28, main_v29, main_v30]
theorem cE_writes : (cE : List (HloOp τ sig (Elt F))).Forall fun op => op.writes ⊆ (cE_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cE_keep (W : Valuation τ sig (Elt F)) (r : Ref sig .tc) (h : r ∉ cE_W) :
    after cE W (Proc.devRef .tc r) = W (Proc.devRef .tc r) :=
  after_of_writes_sub cE _ cE_writes h

/-- Operations %c_6–%36: the (wrapped) source words as a column, for layer 1's aggregation. -/
abbrev cF : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)) ]
/-- The buffers these operations write. -/
abbrev cF_W : List (Ref sig .tc) := [main_c_6, main_v31, main_v32, main_c_7, main_v33, main_v34, main_v35, main_v36]
theorem cF_writes : (cF : List (HloOp τ sig (Elt F))).Forall fun op => op.writes ⊆ (cF_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cF_keep (W : Valuation τ sig (Elt F)) (r : Ref sig .tc) (h : r ∉ cF_W) :
    after cF W (Proc.devRef .tc r) = W (Proc.devRef .tc r) :=
  after_of_writes_sub cF _ cF_writes h

/-- Operations %37–%43: layer 1's aggregation: rows taken at the source words, scaled by the weights, accumulated at the destination words. -/
abbrev cG : List (HloOp τ sig (Elt F)) :=
  [ binary main_v7 main_v36 main_v37 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x16 ![0, 1] bcast_S1700000x1_S1700000x16_0_1 : (⟨S1700000x1, .f32⟩ : BufTy).Contents (Elt F) → (⟨S1700000x16, .f32⟩ : BufTy).Contents (Elt F)),
    binary main_v37 main_v39 main_v40 (mulf : (⟨S1700000x16, .f32⟩ : BufTy).Contents (Elt F) → (⟨S1700000x16, .f32⟩ : BufTy).Contents (Elt F) → (⟨S1700000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) ]
/-- The buffers these operations write. -/
abbrev cG_W : List (Ref sig .tc) := [main_v37, main_v38, main_v39, main_v40, main_cst_8, main_v41, main_v42, main_v43]
theorem cG_writes : (cG : List (HloOp τ sig (Elt F))).Forall fun op => op.writes ⊆ (cG_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cG_keep (W : Valuation τ sig (Elt F)) (r : Ref sig .tc) (h : r ∉ cG_W) :
    after cG W (Proc.devRef .tc r) = W (Proc.devRef .tc r) :=
  after_of_writes_sub cG _ cG_writes h

/-- Operations %44–%47: the bias added and the maximum with 0. -/
abbrev cH : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    nullary main_call1_cst (constant S_ .f32 0x00000000#32),
    unary main_call1_cst main_call1_v0 (broadcastInDim S100000x16 ![] bcast_S_S100000x16 : (⟨S_, .f32⟩ : BufTy).Contents (Elt F) → (⟨S100000x16, .f32⟩ : BufTy).Contents (Elt F)),
    binary main_v46 main_call1_v0 main_v47 (maximumf : (⟨S100000x16, .f32⟩ : BufTy).Contents (Elt F) → (⟨S100000x16, .f32⟩ : BufTy).Contents (Elt F) → (⟨S100000x16, .f32⟩ : BufTy).Contents (Elt F)) ]
/-- The buffers these operations write. -/
abbrev cH_W : List (Ref sig .tc) := [main_v44, main_v45, main_v46, main_call1_cst, main_call1_v0, main_v47]
theorem cH_writes : (cH : List (HloOp τ sig (Elt F))).Forall fun op => op.writes ⊆ (cH_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cH_keep (W : Valuation τ sig (Elt F)) (r : Ref sig .tc) (h : r ∉ cH_W) :
    after cH W (Proc.devRef .tc r) = W (Proc.devRef .tc r) :=
  after_of_writes_sub cH _ cH_writes h

/-- Operation %48: the second layer's product with W2. -/
abbrev cI : List (HloOp τ sig (Elt F)) :=
  [ binary main_v47 main_arg4 main_v48 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)) ]
/-- The buffers these operations write. -/
abbrev cI_W : List (Ref sig .tc) := [main_v48]
theorem cI_writes : (cI : List (HloOp τ sig (Elt F))).Forall fun op => op.writes ⊆ (cI_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
/-- A buffer none of them writes keeps its contents. -/
theorem cI_keep (W : Valuation τ sig (Elt F)) (r : Ref sig .tc) (h : r ∉ cI_W) :
    after cI W (Proc.devRef .tc r) = W (Proc.devRef .tc r) :=
  after_of_writes_sub cI _ cI_writes h

/-- Operations %cst_9–%56: the in-degree and its inverse square root again (the same operations on the same destination words). -/
abbrev cJ : List (HloOp τ sig (Elt F)) :=
  [ nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    unary main_cst_12 main_call2_v0 (id : (⟨S_, .f32⟩ : BufTy).Contents (Elt F) → (⟨S_, .f32⟩ : BufTy).Contents (Elt F)),
    unary main_call2_v0 main_call2_v1 (broadcastInDim S100000 ![] bcast_S_S100000 : (⟨S_, .f32⟩ : BufTy).Contents (Elt F) → (⟨S100000, .f32⟩ : BufTy).Contents (Elt F)),
    ternary main_v54 main_v55 main_call2_v1 main_v56 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]
/-- The buffers these operations write. -/
abbrev cJ_W : List (Ref sig .tc) := [main_cst_9, main_v49, main_cst_10, main_v50, main_v51, main_v52, main_cst_11, main_v53, main_v54, main_v55, main_cst_12, main_call2_v0, main_call2_v1, main_v56]
theorem cJ_writes : (cJ : List (HloOp τ sig (Elt F))).Forall fun op => op.writes ⊆ (cJ_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cJ_keep (W : Valuation τ sig (Elt F)) (r : Ref sig .tc) (h : r ∉ cJ_W) :
    after cJ W (Proc.devRef .tc r) = W (Proc.devRef .tc r) :=
  after_of_writes_sub cJ _ cJ_writes h

/-- Operations %c_13–%63: taken at the source words again. -/
abbrev cK : List (HloOp τ sig (Elt F)) :=
  [ nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ]
/-- The buffers these operations write. -/
abbrev cK_W : List (Ref sig .tc) := [main_c_13, main_v57, main_v58, main_c_14, main_v59, main_v60, main_v61, main_v62, main_v63]
theorem cK_writes : (cK : List (HloOp τ sig (Elt F))).Forall fun op => op.writes ⊆ (cK_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cK_keep (W : Valuation τ sig (Elt F)) (r : Ref sig .tc) (h : r ∉ cK_W) :
    after cK W (Proc.devRef .tc r) = W (Proc.devRef .tc r) :=
  after_of_writes_sub cK _ cK_writes h

/-- Operations %c_15–%71: taken at the destination words again, and the edge weights again. -/
abbrev cL : List (HloOp τ sig (Elt F)) :=
  [ nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)) ]
/-- The buffers these operations write. -/
abbrev cL_W : List (Ref sig .tc) := [main_c_15, main_v64, main_v65, main_c_16, main_v66, main_v67, main_v68, main_v69, main_v70, main_v71]
theorem cL_writes : (cL : List (HloOp τ sig (Elt F))).Forall fun op => op.writes ⊆ (cL_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cL_keep (W : Valuation τ sig (Elt F)) (r : Ref sig .tc) (h : r ∉ cL_W) :
    after cL W (Proc.devRef .tc r) = W (Proc.devRef .tc r) :=
  after_of_writes_sub cL _ cL_writes h

/-- Operations %c_17–%77: the (wrapped) source words as a column, for layer 2's aggregation. -/
abbrev cM : List (HloOp τ sig (Elt F)) :=
  [ nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)) ]
/-- The buffers these operations write. -/
abbrev cM_W : List (Ref sig .tc) := [main_c_17, main_v72, main_v73, main_c_18, main_v74, main_v75, main_v76, main_v77]
theorem cM_writes : (cM : List (HloOp τ sig (Elt F))).Forall fun op => op.writes ⊆ (cM_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cM_keep (W : Valuation τ sig (Elt F)) (r : Ref sig .tc) (h : r ∉ cM_W) :
    after cM W (Proc.devRef .tc r) = W (Proc.devRef .tc r) :=
  after_of_writes_sub cM _ cM_writes h

/-- Operations %78–%84: layer 2's aggregation. -/
abbrev cN : List (HloOp τ sig (Elt F)) :=
  [ binary main_v48 main_v77 main_v78 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x128 ![0, 1] bcast_S1700000x1_S1700000x128_0_1 : (⟨S1700000x1, .f32⟩ : BufTy).Contents (Elt F) → (⟨S1700000x128, .f32⟩ : BufTy).Contents (Elt F)),
    binary main_v78 main_v80 main_v81 (mulf : (⟨S1700000x128, .f32⟩ : BufTy).Contents (Elt F) → (⟨S1700000x128, .f32⟩ : BufTy).Contents (Elt F) → (⟨S1700000x128, .f32⟩ : BufTy).Contents (Elt F)),
    nullary main_cst_19 (constant S_ .f32 0x00000000#32),
    unary main_cst_19 main_v82 (broadcastInDim S100000x128 ![] bcast_S_S100000x128 : (⟨S_, .f32⟩ : BufTy).Contents (Elt F) → (⟨S100000x128, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The buffers these operations write. -/
abbrev cN_W : List (Ref sig .tc) := [main_v78, main_v79, main_v80, main_v81, main_cst_19, main_v82, main_v83, main_v84]
theorem cN_writes : (cN : List (HloOp τ sig (Elt F))).Forall fun op => op.writes ⊆ (cN_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cN_keep (W : Valuation τ sig (Elt F)) (r : Ref sig .tc) (h : r ∉ cN_W) :
    after cN W (Proc.devRef .tc r) = W (Proc.devRef .tc r) :=
  after_of_writes_sub cN _ cN_writes h

/-- Operations %85–%87: the second bias added. -/
abbrev cO : List (HloOp τ sig (Elt F)) :=
  [ unary main_arg5 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v84 main_v86 main_v87 (addf : (⟨S100000x128, .f32⟩ : BufTy).Contents (Elt F) → (⟨S100000x128, .f32⟩ : BufTy).Contents (Elt F) → (⟨S100000x128, .f32⟩ : BufTy).Contents (Elt F)) ]
/-- The buffers these operations write. -/
abbrev cO_W : List (Ref sig .tc) := [main_v85, main_v86, main_v87]
theorem cO_writes : (cO : List (HloOp τ sig (Elt F))).Forall fun op => op.writes ⊆ (cO_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer none of them writes keeps its contents. -/
theorem cO_keep (W : Valuation τ sig (Elt F)) (r : Ref sig .tc) (h : r ∉ cO_W) :
    after cO W (Proc.devRef .tc r) = W (Proc.devRef .tc r) :=
  after_of_writes_sub cO _ cO_writes h

end Stretches

section S2
variable {F : FTy → Type} [FloatOps F]
set_option maxRecDepth 8192 in
/-- The program's operations are the fifteen stretches in a row. -/
theorem ops_split : (RunP.ops : List (HloOp τ sig (Elt F))) = cA ++ (cB ++ (cC ++ (cD ++ (cE ++ (cF ++ (cG ++ (cH ++ (cI ++ (cJ ++ (cK ++ (cL ++ (cM ++ (cN ++ (cO)))))))))))))) := rfl
end S2

section S3
variable {F : FTy → Type} [FloatOps F]
/-- A buffer that no stretch writes holds at the end what it held at the start. -/
theorem fold_keep (V : Valuation τ sig (Elt F)) (r : Ref sig .tc) (hA : r ∉ cA_W) (hB : r ∉ cB_W) (hC : r ∉ cC_W) (hD : r ∉ cD_W) (hE : r ∉ cE_W) (hF : r ∉ cF_W) (hG : r ∉ cG_W) (hH : r ∉ cH_W) (hI : r ∉ cI_W) (hJ : r ∉ cJ_W) (hK : r ∉ cK_W) (hL : r ∉ cL_W) (hM : r ∉ cM_W) (hN : r ∉ cN_W) (hO : r ∉ cO_W) :
    after RunP.ops V (Proc.devRef .tc r) = V (Proc.devRef .tc r) := by
  rw [ops_split]; simp only [after_app]
  rw [cO_keep _ r hO, cN_keep _ r hN, cM_keep _ r hM, cL_keep _ r hL, cK_keep _ r hK, cJ_keep _ r hJ, cI_keep _ r hI, cH_keep _ r hH, cG_keep _ r hG, cF_keep _ r hF, cE_keep _ r hE, cD_keep _ r hD, cC_keep _ r hC, cB_keep _ r hB, cA_keep _ r hA]
end S3

/-! ## What each stretch computes

For an arbitrary valuation W of the buffers: the contents a stretch leaves in the buffer later stretches read, as a
function of what W holds in the buffers the stretch itself reads. -/

set_option maxRecDepth 8192 in
/-- %3: row 0 of the edge table followed by the self loops. -/
theorem A_v3 (W : Valuation τ sig (Elt Ideal)) :
    (after (cA (F := Ideal)) W (Proc.devRef .tc main_v3) : IVec S1700000 32)
      = R.src (W (Proc.devRef .tc main_arg1)) := by
  unfold cA; after_results
  all_goals rfl
set_option maxRecDepth 8192 in
/-- %6: row 1 of the edge table followed by the self loops. -/
theorem A_v6 (W : Valuation τ sig (Elt Ideal)) :
    (after (cA (F := Ideal)) W (Proc.devRef .tc main_v6) : IVec S1700000 32)
      = R.dst (W (Proc.devRef .tc main_arg1)) := by
  unfold cA; after_results
  all_goals rfl
set_option maxRecDepth 8192 in
/-- %7: x · W1. -/
theorem B_v7 (W : Valuation τ sig (Elt Ideal)) :
    (after (cB (F := Ideal)) W (Proc.devRef .tc main_v7) : FVec Ideal S100000x16 .f32)
      = Host.dotGeneral (F := Ideal) (φ₁ := .f32) (φ₂ := .f32) dot_S100000x128_S128x16_S100000x16_1_0_0_1_n_n none (W (Proc.devRef .tc main_arg0) : FVec Ideal S100000x128 .f32) (W (Proc.devRef .tc main_arg2) : FVec Ideal S128x16 .f32) := by
  unfold cB; after_results
  all_goals rfl
set_option maxRecDepth 8192 in
/-- %15: from the destination words, the inverse square root of the in-degree (0 where the degree is not positive). -/
theorem C_v15 (W : Valuation τ sig (Elt Ideal)) (E : IVec S2x1600000 32) (h6 : (W (Proc.devRef .tc main_v6) : IVec S1700000 32) = R.dst E) :
    (after (cC (F := Ideal)) W (Proc.devRef .tc main_v15) : FVec Ideal S100000 .f32)
      = R.dinv E := by
  unfold cC; after_results; rw [h6]
  all_goals rfl
set_option maxRecDepth 8192 in
/-- %22: that array taken at the source words. -/
theorem D_v22 (W : Valuation τ sig (Elt Ideal)) (E : IVec S2x1600000 32) (h15 : (W (Proc.devRef .tc main_v15) : FVec Ideal S100000 .f32) = R.dinv E)
    (h3 : (W (Proc.devRef .tc main_v3) : IVec S1700000 32) = R.src E) :
    (after (cD (F := Ideal)) W (Proc.devRef .tc main_v22) : FVec Ideal S1700000 .f32)
      = Host.gather gather_S100000_S1700000x1_S1700000_n_0_n_n_0_1_1 (R.dinv E) (R.col (R.wrap (R.src E))) := by
  unfold cD; after_results; rw [h15, h3]
  all_goals rfl
set_option maxRecDepth 8192 in
/-- %30: the edge weights: the array taken at the source words times the array taken at the destination words. -/
theorem E_v30 (W : Valuation τ sig (Elt Ideal)) (E : IVec S2x1600000 32) (h15 : (W (Proc.devRef .tc main_v15) : FVec Ideal S100000 .f32) = R.dinv E)
    (h22 : (W (Proc.devRef .tc main_v22) : FVec Ideal S1700000 .f32) = Host.gather gather_S100000_S1700000x1_S1700000_n_0_n_n_0_1_1 (R.dinv E) (R.col (R.wrap (R.src E))))
    (h6 : (W (Proc.devRef .tc main_v6) : IVec S1700000 32) = R.dst E) :
    (after (cE (F := Ideal)) W (Proc.devRef .tc main_v30) : FVec Ideal S1700000 .f32)
      = R.norm E := by
  unfold cE; after_results; rw [h15, h22, h6]
  all_goals rfl
set_option maxRecDepth 8192 in
/-- %36: the source words, a negative one moved up by 100000, as a column. -/
theorem F_v36 (W : Valuation τ sig (Elt Ideal)) (E : IVec S2x1600000 32) (h3 : (W (Proc.devRef .tc main_v3) : IVec S1700000 32) = R.src E) :
    (after (cF (F := Ideal)) W (Proc.devRef .tc main_v36) : IVec S1700000x1 32)
      = R.col (R.wrap (R.src E)) := by
  unfold cF; after_results; rw [h3]
  all_goals rfl
set_option maxRecDepth 8192 in
/-- %43: layer 1's aggregation of the array held in %7. -/
theorem G_v43 (W : Valuation τ sig (Elt Ideal)) (E : IVec S2x1600000 32) (h : FVec Ideal S100000x16 .f32) (h36 : (W (Proc.devRef .tc main_v36) : IVec S1700000x1 32) = R.col (R.wrap (R.src E)))
    (h7 : (W (Proc.devRef .tc main_v7) : FVec Ideal S100000x16 .f32) = h) (h30 : (W (Proc.devRef .tc main_v30) : FVec Ideal S1700000 .f32) = R.norm E)
    (h6 : (W (Proc.devRef .tc main_v6) : IVec S1700000 32) = R.dst E) :
    (after (cG (F := Ideal)) W (Proc.devRef .tc main_v43) : FVec Ideal S100000x16 .f32)
      = R.agg16 E h := by
  unfold cG; after_results; rw [h36, h7, h30, h6]
  all_goals rfl
set_option maxRecDepth 8192 in
/-- %47: layer 1's output: the aggregation plus the bias, then the maximum with 0. -/
theorem H_v47 (W : Valuation τ sig (Elt Ideal)) (E : IVec S2x1600000 32) (x : FVec Ideal S100000x128 .f32) (w1 : FVec Ideal S128x16 .f32) (b1 : FVec Ideal S16 .f32)
    (h43 : (W (Proc.devRef .tc main_v43) : FVec Ideal S100000x16 .f32) = R.agg16 E (Host.dotGeneral (F := Ideal) (φ₁ := .f32) (φ₂ := .f32) dot_S100000x128_S128x16_S100000x16_1_0_0_1_n_n none x w1))
    (hb : (W (Proc.devRef .tc main_arg3) : FVec Ideal S16 .f32) = b1) :
    (after (cH (F := Ideal)) W (Proc.devRef .tc main_v47) : FVec Ideal S100000x16 .f32)
      = R.hidden E x w1 b1 := by
  unfold cH; after_results; rw [h43, hb]
  all_goals rfl
set_option maxRecDepth 8192 in
/-- %48: layer 1's output times W2. -/
theorem I_v48 (W : Valuation τ sig (Elt Ideal)) :
    (after (cI (F := Ideal)) W (Proc.devRef .tc main_v48) : FVec Ideal S100000x128 .f32)
      = Host.dotGeneral (F := Ideal) (φ₁ := .f32) (φ₂ := .f32) dot_S100000x16_S16x128_S100000x128_1_0_0_1_n_n none (W (Proc.devRef .tc main_v47) : FVec Ideal S100000x16 .f32) (W (Proc.devRef .tc main_arg4) : FVec Ideal S16x128 .f32) := by
  unfold cI; after_results
  all_goals rfl
set_option maxRecDepth 8192 in
/-- %56: the inverse square root of the in-degree, computed a second time from the same destination words. -/
theorem J_v56 (W : Valuation τ sig (Elt Ideal)) (E : IVec S2x1600000 32) (h6 : (W (Proc.devRef .tc main_v6) : IVec S1700000 32) = R.dst E) :
    (after (cJ (F := Ideal)) W (Proc.devRef .tc main_v56) : FVec Ideal S100000 .f32)
      = R.dinv E := by
  unfold cJ; after_results; rw [h6]
  all_goals rfl
set_option maxRecDepth 8192 in
/-- %63: taken at the source words. -/
theorem K_v63 (W : Valuation τ sig (Elt Ideal)) (E : IVec S2x1600000 32) (h56 : (W (Proc.devRef .tc main_v56) : FVec Ideal S100000 .f32) = R.dinv E)
    (h3 : (W (Proc.devRef .tc main_v3) : IVec S1700000 32) = R.src E) :
    (after (cK (F := Ideal)) W (Proc.devRef .tc main_v63) : FVec Ideal S1700000 .f32)
      = Host.gather gather_S100000_S1700000x1_S1700000_n_0_n_n_0_1_1 (R.dinv E) (R.col (R.wrap (R.src E))) := by
  unfold cK; after_results; rw [h56, h3]
  all_goals rfl
set_option maxRecDepth 8192 in
/-- %71: the edge weights, computed a second time: the same term. -/
theorem L_v71 (W : Valuation τ sig (Elt Ideal)) (E : IVec S2x1600000 32) (h56 : (W (Proc.devRef .tc main_v56) : FVec Ideal S100000 .f32) = R.dinv E)
    (h63 : (W (Proc.devRef .tc main_v63) : FVec Ideal S1700000 .f32) = Host.gather gather_S100000_S1700000x1_S1700000_n_0_n_n_0_1_1 (R.dinv E) (R.col (R.wrap (R.src E))))
    (h6 : (W (Proc.devRef .tc main_v6) : IVec S1700000 32) = R.dst E) :
    (after (cL (F := Ideal)) W (Proc.devRef .tc main_v71) : FVec Ideal S1700000 .f32)
      = R.norm E := by
  unfold cL; after_results; rw [h56, h63, h6]
  all_goals rfl
set_option maxRecDepth 8192 in
/-- %77: the source words as a column again. -/
theorem M_v77 (W : Valuation τ sig (Elt Ideal)) (E : IVec S2x1600000 32) (h3 : (W (Proc.devRef .tc main_v3) : IVec S1700000 32) = R.src E) :
    (after (cM (F := Ideal)) W (Proc.devRef .tc main_v77) : IVec S1700000x1 32)
      = R.col (R.wrap (R.src E)) := by
  unfold cM; after_results; rw [h3]
  all_goals rfl
set_option maxRecDepth 8192 in
/-- %84: layer 2's aggregation of the array held in %48. -/
theorem N_v84 (W : Valuation τ sig (Elt Ideal)) (E : IVec S2x1600000 32) (h : FVec Ideal S100000x128 .f32) (h77 : (W (Proc.devRef .tc main_v77) : IVec S1700000x1 32) = R.col (R.wrap (R.src E)))
    (h48 : (W (Proc.devRef .tc main_v48) : FVec Ideal S100000x128 .f32) = h) (h71 : (W (Proc.devRef .tc main_v71) : FVec Ideal S1700000 .f32) = R.norm E)
    (h6 : (W (Proc.devRef .tc main_v6) : IVec S1700000 32) = R.dst E) :
    (after (cN (F := Ideal)) W (Proc.devRef .tc main_v84) : FVec Ideal S100000x128 .f32)
      = R.agg128 E h := by
  unfold cN; after_results; rw [h77, h48, h71, h6]
  all_goals rfl
set_option maxRecDepth 8192 in
/-- %87: the aggregation plus the second bias. -/
theorem O_v87 (W : Valuation τ sig (Elt Ideal)) :
    (after (cO (F := Ideal)) W (Proc.devRef .tc main_v87) : FVec Ideal S100000x128 .f32)
      = addf (F := Ideal) (s := S100000x128) (φ := .f32) (W (Proc.devRef .tc main_v84) : FVec Ideal S100000x128 .f32)
          (broadcastInDim S100000x128 ![0, 1] bcast_S1x128_S100000x128_0_1 (broadcastInDim S1x128 ![1] bcast_S128_S1x128_1 (W (Proc.devRef .tc main_arg5) : FVec Ideal S128 .f32))) := by
  unfold cO; after_results
  all_goals rfl

/-! ## The chain -/

/-- The result buffer after the whole line, from any launch contents V: R.out of V's six argument arrays. -/
theorem fold_v87 (V : Valuation τ sig (Elt Ideal)) :
    (after (RunP.ops (F := Ideal)) V (Proc.devRef .tc main_v87) : FVec Ideal S100000x128 .f32)
      = R.out (V (Proc.devRef .tc main_arg1)) (V (Proc.devRef .tc main_arg0)) (V (Proc.devRef .tc main_arg2)) (V (Proc.devRef .tc main_arg3))
          (V (Proc.devRef .tc main_arg4)) (V (Proc.devRef .tc main_arg5)) := by
  rw [ops_split]; simp only [after_app]
  -- Operations %0–%6: the two rows of the edge table, each followed by the self loops 0, …, 99999.
  have a_v3 := A_v3 V
  have a_v6 := A_v6 V
  have a_arg5 := cA_keep V main_arg5 (by decide)
  have a_arg4 := cA_keep V main_arg4 (by decide)
  have a_arg3 := cA_keep V main_arg3 (by decide)
  have a_arg0 := cA_keep V main_arg0 (by decide)
  have a_arg2 := cA_keep V main_arg2 (by decide)
  generalize after (cA (F := Ideal)) V = WA at a_v3 a_v6 a_arg5 a_arg4 a_arg3 a_arg0 a_arg2 ⊢
  -- Operation %7: the first layer's product x · W1.
  have b_v7 := B_v7 WA
  rw [a_arg0, a_arg2] at b_v7
  have b_arg5 := (cB_keep WA main_arg5 (by decide)).trans a_arg5
  have b_v6 := (cB_keep WA main_v6 (by decide)).trans a_v6
  have b_v3 := (cB_keep WA main_v3 (by decide)).trans a_v3
  have b_arg4 := (cB_keep WA main_arg4 (by decide)).trans a_arg4
  have b_arg3 := (cB_keep WA main_arg3 (by decide)).trans a_arg3
  generalize after (cB (F := Ideal)) WA = WB at b_v7 b_arg5 b_v6 b_v3 b_arg4 b_arg3 ⊢
  -- Operations %cst–%15: the in-degree (ones accumulated at the destination words) and its inverse square root where positive, else 0.
  have c_v15 := C_v15 WB (V (Proc.devRef .tc main_arg1)) b_v6
  have c_arg5 := (cC_keep WB main_arg5 (by decide)).trans b_arg5
  have c_v6 := (cC_keep WB main_v6 (by decide)).trans b_v6
  have c_v3 := (cC_keep WB main_v3 (by decide)).trans b_v3
  have c_arg4 := (cC_keep WB main_arg4 (by decide)).trans b_arg4
  have c_arg3 := (cC_keep WB main_arg3 (by decide)).trans b_arg3
  have c_v7 := (cC_keep WB main_v7 (by decide)).trans b_v7
  generalize after (cC (F := Ideal)) WB = WC at c_v15 c_arg5 c_v6 c_v3 c_arg4 c_arg3 c_v7 ⊢
  -- Operations %c–%22: the inverse square root of the degree taken at the (wrapped) source words.
  have d_v22 := D_v22 WC (V (Proc.devRef .tc main_arg1)) c_v15 c_v3
  have d_arg5 := (cD_keep WC main_arg5 (by decide)).trans c_arg5
  have d_v6 := (cD_keep WC main_v6 (by decide)).trans c_v6
  have d_v3 := (cD_keep WC main_v3 (by decide)).trans c_v3
  have d_arg4 := (cD_keep WC main_arg4 (by decide)).trans c_arg4
  have d_arg3 := (cD_keep WC main_arg3 (by decide)).trans c_arg3
  have d_v7 := (cD_keep WC main_v7 (by decide)).trans c_v7
  have d_v15 := (cD_keep WC main_v15 (by decide)).trans c_v15
  generalize after (cD (F := Ideal)) WC = WD at d_v22 d_arg5 d_v6 d_v3 d_arg4 d_arg3 d_v7 d_v15 ⊢
  -- Operations %c_4–%30: the same taken at the (wrapped) destination words, and the product of the two: the edge weights.
  have e_v30 := E_v30 WD (V (Proc.devRef .tc main_arg1)) d_v15 d_v22 d_v6
  have e_arg5 := (cE_keep WD main_arg5 (by decide)).trans d_arg5
  have e_v6 := (cE_keep WD main_v6 (by decide)).trans d_v6
  have e_v3 := (cE_keep WD main_v3 (by decide)).trans d_v3
  have e_arg4 := (cE_keep WD main_arg4 (by decide)).trans d_arg4
  have e_arg3 := (cE_keep WD main_arg3 (by decide)).trans d_arg3
  have e_v7 := (cE_keep WD main_v7 (by decide)).trans d_v7
  generalize after (cE (F := Ideal)) WD = WE at e_v30 e_arg5 e_v6 e_v3 e_arg4 e_arg3 e_v7 ⊢
  -- Operations %c_6–%36: the (wrapped) source words as a column, for layer 1's aggregation.
  have f_v36 := F_v36 WE (V (Proc.devRef .tc main_arg1)) e_v3
  have f_arg5 := (cF_keep WE main_arg5 (by decide)).trans e_arg5
  have f_v6 := (cF_keep WE main_v6 (by decide)).trans e_v6
  have f_v3 := (cF_keep WE main_v3 (by decide)).trans e_v3
  have f_arg4 := (cF_keep WE main_arg4 (by decide)).trans e_arg4
  have f_arg3 := (cF_keep WE main_arg3 (by decide)).trans e_arg3
  have f_v7 := (cF_keep WE main_v7 (by decide)).trans e_v7
  have f_v30 := (cF_keep WE main_v30 (by decide)).trans e_v30
  generalize after (cF (F := Ideal)) WE = WF at f_v36 f_arg5 f_v6 f_v3 f_arg4 f_arg3 f_v7 f_v30 ⊢
  -- Operations %37–%43: layer 1's aggregation: rows taken at the source words, scaled by the weights, accumulated at the destination words.
  have g_v43 := G_v43 WF (V (Proc.devRef .tc main_arg1)) _ f_v36 f_v7 f_v30 f_v6
  have g_arg5 := (cG_keep WF main_arg5 (by decide)).trans f_arg5
  have g_v6 := (cG_keep WF main_v6 (by decide)).trans f_v6
  have g_v3 := (cG_keep WF main_v3 (by decide)).trans f_v3
  have g_arg4 := (cG_keep WF main_arg4 (by decide)).trans f_arg4
  have g_arg3 := (cG_keep WF main_arg3 (by decide)).trans f_arg3
  generalize after (cG (F := Ideal)) WF = WG at g_v43 g_arg5 g_v6 g_v3 g_arg4 g_arg3 ⊢
  -- Operations %44–%47: the bias added and the maximum with 0.
  have h_v47 := H_v47 WG (V (Proc.devRef .tc main_arg1)) _ _ _ g_v43 g_arg3
  have h_arg5 := (cH_keep WG main_arg5 (by decide)).trans g_arg5
  have h_v6 := (cH_keep WG main_v6 (by decide)).trans g_v6
  have h_v3 := (cH_keep WG main_v3 (by decide)).trans g_v3
  have h_arg4 := (cH_keep WG main_arg4 (by decide)).trans g_arg4
  generalize after (cH (F := Ideal)) WG = WH at h_v47 h_arg5 h_v6 h_v3 h_arg4 ⊢
  -- Operation %48: the second layer's product with W2.
  have i_v48 := I_v48 WH
  rw [h_v47, h_arg4] at i_v48
  have i_arg5 := (cI_keep WH main_arg5 (by decide)).trans h_arg5
  have i_v6 := (cI_keep WH main_v6 (by decide)).trans h_v6
  have i_v3 := (cI_keep WH main_v3 (by decide)).trans h_v3
  generalize after (cI (F := Ideal)) WH = WI at i_v48 i_arg5 i_v6 i_v3 ⊢
  -- Operations %cst_9–%56: the in-degree and its inverse square root again (the same operations on the same destination words).
  have j_v56 := J_v56 WI (V (Proc.devRef .tc main_arg1)) i_v6
  have j_arg5 := (cJ_keep WI main_arg5 (by decide)).trans i_arg5
  have j_v48 := (cJ_keep WI main_v48 (by decide)).trans i_v48
  have j_v6 := (cJ_keep WI main_v6 (by decide)).trans i_v6
  have j_v3 := (cJ_keep WI main_v3 (by decide)).trans i_v3
  generalize after (cJ (F := Ideal)) WI = WJ at j_v56 j_arg5 j_v48 j_v6 j_v3 ⊢
  -- Operations %c_13–%63: taken at the source words again.
  have k_v63 := K_v63 WJ (V (Proc.devRef .tc main_arg1)) j_v56 j_v3
  have k_arg5 := (cK_keep WJ main_arg5 (by decide)).trans j_arg5
  have k_v48 := (cK_keep WJ main_v48 (by decide)).trans j_v48
  have k_v6 := (cK_keep WJ main_v6 (by decide)).trans j_v6
  have k_v3 := (cK_keep WJ main_v3 (by decide)).trans j_v3
  have k_v56 := (cK_keep WJ main_v56 (by decide)).trans j_v56
  generalize after (cK (F := Ideal)) WJ = WK at k_v63 k_arg5 k_v48 k_v6 k_v3 k_v56 ⊢
  -- Operations %c_15–%71: taken at the destination words again, and the edge weights again.
  have l_v71 := L_v71 WK (V (Proc.devRef .tc main_arg1)) k_v56 k_v63 k_v6
  have l_arg5 := (cL_keep WK main_arg5 (by decide)).trans k_arg5
  have l_v48 := (cL_keep WK main_v48 (by decide)).trans k_v48
  have l_v6 := (cL_keep WK main_v6 (by decide)).trans k_v6
  have l_v3 := (cL_keep WK main_v3 (by decide)).trans k_v3
  generalize after (cL (F := Ideal)) WK = WL at l_v71 l_arg5 l_v48 l_v6 l_v3 ⊢
  -- Operations %c_17–%77: the (wrapped) source words as a column, for layer 2's aggregation.
  have m_v77 := M_v77 WL (V (Proc.devRef .tc main_arg1)) l_v3
  have m_arg5 := (cM_keep WL main_arg5 (by decide)).trans l_arg5
  have m_v48 := (cM_keep WL main_v48 (by decide)).trans l_v48
  have m_v71 := (cM_keep WL main_v71 (by decide)).trans l_v71
  have m_v6 := (cM_keep WL main_v6 (by decide)).trans l_v6
  generalize after (cM (F := Ideal)) WL = WM at m_v77 m_arg5 m_v48 m_v71 m_v6 ⊢
  -- Operations %78–%84: layer 2's aggregation.
  have n_v84 := N_v84 WM (V (Proc.devRef .tc main_arg1)) _ m_v77 m_v48 m_v71 m_v6
  have n_arg5 := (cN_keep WM main_arg5 (by decide)).trans m_arg5
  generalize after (cN (F := Ideal)) WM = WN at n_v84 n_arg5 ⊢
  -- Operations %85–%87: the second bias added.
  have o_v87 := O_v87 WN
  rw [n_v84, n_arg5] at o_v87
  exact o_v87

/-- The reference program runs, ends with its result array at R.out of its six argument arrays, and leaves the
    argument arrays as they were. -/
theorem reference_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v87)
        = R.out (m ((c.tc : Thread nD τ).loc main_arg1)) (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c =>
    ⟨(h c main_v87).trans (fold_v87 (launchContents m c)),
     (h c main_arg0).trans (fold_keep (launchContents m c) main_arg0 (by decide) (by decide) (by decide) (by decide) (by decide) (by decide) (by decide) (by decide) (by decide) (by decide) (by decide) (by decide) (by decide) (by decide) (by decide)),
     (h c main_arg1).trans (fold_keep (launchContents m c) main_arg1 (by decide) (by decide) (by decide) (by decide) (by decide) (by decide) (by decide) (by decide) (by decide) (by decide) (by decide) (by decide) (by decide) (by decide) (by decide)),
     (h c main_arg2).trans (fold_keep (launchContents m c) main_arg2 (by decide) (by decide) (by decide) (by decide) (by decide) (by decide) (by decide) (by decide) (by decide) (by decide) (by decide) (by decide) (by decide) (by decide) (by decide)),
     (h c main_arg3).trans (fold_keep (launchContents m c) main_arg3 (by decide) (by decide) (by decide) (by decide) (by decide) (by decide) (by decide) (by decide) (by decide) (by decide) (by decide) (by decide) (by decide) (by decide) (by decide)),
     (h c main_arg4).trans (fold_keep (launchContents m c) main_arg4 (by decide) (by decide) (by decide) (by decide) (by decide) (by decide) (by decide) (by decide) (by decide) (by decide) (by decide) (by decide) (by decide) (by decide) (by decide)),
     (h c main_arg5).trans (fold_keep (launchContents m c) main_arg5 (by decide) (by decide) (by decide) (by decide) (by decide) (by decide) (by decide) (by decide) (by decide) (by decide) (by decide) (by decide) (by decide) (by decide) (by decide))⟩)
    (RunP.run_fold m ρ)

end Cert.Gcn

end
-- ==== Proof.Finite.lean ====
/-
  From the precondition "every float input is finite" to "every entry of each float argument is a real number".

  The precondition computes, for each float argument x, the bit all(|x| < +inf): an all-reduction by "and", started
  at 1, of the entrywise comparison of |x| with the IEEE pattern of +infinity, and joins the five bits by "and".
  When the joined bit is 1 each of the five bits is 1 (an "and" of one-bit words is 1 only when both are), and when
  the bit of an all-reduction by "and" is 1 every entry it reduced over is 1. So at every index i the comparison
  |x i| < +inf holds. Over the extended reals |x| is max x (-x), and the pattern 0x7F800000 denotes the top element:
  of the three kinds of extended real, the bottom element has -x = top, the top element is itself top, so neither has
  max x (-x) < top; what remains is a real number.
-/
import proofs.«129788_j32727650795996_2_alg».proof.Pre_finite_inputs
import Idealize.ShloMosaic.PureOps.Ideal
import Idealize.ShloMosaic.Lib.ReduceAll
import Idealize.ShloMosaic.Lib.ValueIdx

noncomputable section

namespace Cert.Gcn

open Idealize.ShloMosaic Idealize.ShloMosaic.ValueIdx

/-- An extended real whose absolute value max x (-x) lies strictly below the top element is a real number:
    at the bottom element the negation is the top element, and the top element is itself not below the top. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (sign 0, exponent all ones, fraction 0) denotes the top element. -/
theorem inf_pattern : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- The scalar shape has one index. -/
instance : Subsingleton Cert.Pre_finite_inputs.S_.Idx := ⟨fun a b => funext fun d => d.elim0⟩

/-- all(|x| < +inf) = 1 for an array x of any shape S says every entry of x is a real number: the bit of an
    all-reduction by "and" being 1 gives the comparison at each index, the comparison at an index is
    max (x i) (-(x i)) < top, and such an extended real is a real. -/
theorem real_of_all_lt_inf {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (h : Host.reduce IntOp.andi
        (cmpf .olt (Host.absf x)
          (broadcastInDim S ![] hb (constant (F := Ideal) Cert.Pre_finite_inputs.S_ .f32 0x7F800000#32)))
        (constantI Cert.Pre_finite_inputs.S_ 1 1#1) hr hu ix0 = 1#1) :
    ∀ i, ∃ r : ℝ, x i = (r : EReal) := by
  intro i
  have e := Host.reduce_andi_all _ _ hr hu _ h i
  have e' : Ideal.cmp .olt (max (x i) (-(x i))) (Ideal.ofBits .f32 0x7F800000#32) = 1#1 := e
  rw [inf_pattern] at e'
  unfold Ideal.cmp at e'
  rw [ofBool_eq_one] at e'
  exact real_of_abs_lt_top (x i) (of_decide_eq_true e')

/-- The precondition, read back: when the joined bit is 1, every entry of each of the five float arguments is a real
    number. The joined bit is an "and" of five all-reduction bits (the last "and" joins the first four with the
    fifth, and so on inward); each all-reduction bit is read by the lemma above at its argument's shape. -/
theorem real_of_pre [Cert.Pre_finite_inputs.Facts]
    (a0 : FVec Ideal Cert.Pre_finite_inputs.S100000x128 .f32) (a1 : IVec Cert.Pre_finite_inputs.S2x1600000 32)
    (a2 : FVec Ideal Cert.Pre_finite_inputs.S128x16 .f32) (a3 : FVec Ideal Cert.Pre_finite_inputs.S16 .f32)
    (a4 : FVec Ideal Cert.Pre_finite_inputs.S16x128 .f32) (a5 : FVec Ideal Cert.Pre_finite_inputs.S128 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_all_lt_inf a0 _ _ _ h1, real_of_all_lt_inf a2 _ _ _ h2, real_of_all_lt_inf a3 _ _ _ h3,
    real_of_all_lt_inf a4 _ _ _ h4, real_of_all_lt_inf a5 _ _ _ h5⟩

end Cert.Gcn

end
-- ==== Proof.LibRowTakeAdd.lean ====
/-
  Taking rows of, and adding rows into, a two-axis array at a column of index words.

  What h[src] and a segment sum over rows lower to, for an operand [N, C] and a column of index words [R, 1]: a
  gather of whole rows, and an accumulating scatter of whole rows.

  The gather's result row e is the operand's row at the word idx[e, 0], read as a signed integer and clamped into
  [0, N - 1]; the column is kept. The scatter sends update row e to the operand row idx[e, 0], read as a signed
  integer and not clamped, column to column; an update whose word is not a row of the operand is dropped. So the
  accumulated result at (p, k) is the operand's element plus the sum, over the update rows e whose word denotes p,
  of the update's element (e, k). The row an index word selects does not depend on the extent C of the rows.
-/
import Idealize.ShloMosaic.Lib.ValueIdx

noncomputable section

open scoped BigOperators

namespace Cert.RowTakeAdd

open Idealize.ShloMosaic Idealize.ShloMosaic.ValueIdx

section Take
variable {α : Type}

/-- The gather's dimension numbers for an operand [N, C], start indices [R, 1] and result [R, C]: one start
    component per result row, naming operand axis 0, which is collapsed; whole rows of C elements are read. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start word selects: the word read as a signed integer, clamped into [0, N - 1]. -/
def takeRow (N : Nat) {w : Nat} (hN : 0 < N) (v : BitVec w) : Fin N := ⟨min v.toInt.toNat (N - 1), by omega⟩

/-- The gather read at (e, k): the operand at row `takeRow` of the word idx[e, 0] and at column k. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 (takeRow N hN (idx (ix2 e (0 : Fin 1)))) k) := by
  unfold Host.gather
  refine congrArg x ?_
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hst : (rowGatherDims N R C wf).start (ix2 e k) idx 1 = 0 := by
      unfold GatherDims.start
      rw [dif_neg]
      intro h
      exact absurd (List.mem_singleton.mp h) (show ¬ ((1 : Fin 2) = 0) by decide)
    have hoff : (rowGatherDims N R C wf).offCoord (ix2 e k) 1 = k.val := by
      unfold GatherDims.offCoord
      rw [dif_pos ((GatherDims.mem_sKept _ _).mpr ⟨fun h => absurd (List.mem_singleton.mp h) (show ¬ ((1 : Fin 2) = 0) by decide), List.not_mem_nil⟩)]
      rfl
    rw [hst, hoff]
    omega

end Take

section Add

/-- The scatter's dimension numbers for an operand [N, C], scatter indices [R, 1] and updates [R, C]: one index
    component per update row, naming operand axis 0, which is inserted; the updates' axis 1 is the window. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window of update (e, k) starts at the word idx[e, 0], read signed. -/
private theorem start_row {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component names that axis. -/
private theorem start_col {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 1 = 0 := by
  unfold ScatterDims.start
  rw [dif_neg]
  intro h
  exact absurd (List.mem_singleton.mp h) (show ¬ ((1 : Fin 2) = 0) by decide)

/-- The row axis is inserted: its window coordinate is 0. -/
private theorem window_row {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 0 = 0 := by
  unfold ScatterDims.window
  rw [dif_neg]
  intro h
  have := (List.mem_filter.1 h).2
  simp at this

/-- The column axis is the window: its coordinate is the update's column. -/
private theorem window_col {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from
    List.mem_filter.2 ⟨List.mem_finRange _, by simp⟩)]
  rfl

/-- Where update (e, k) lands: at (p, k') exactly when the word idx[e, 0], read signed, is the row p, and k' is k. -/
theorem resultIdx_rows_iff {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (p : Fin N) (k' : Fin C) :
    (rowScatterDims N R C wf).resultIdx? (ix2 e k) idx = some (ix2 p k')
      ↔ (idx (ix2 e (0 : Fin 1))).toInt = (p.val : Int) ∧ k = k' := by
  have h0 : (rowScatterDims N R C wf).start (ix2 e k) idx 0 + (((rowScatterDims N R C wf).window (ix2 e k) 0 : Nat) : Int)
      = (idx (ix2 e (0 : Fin 1))).toInt := by
    rw [start_row, window_row]; simp
  have h1 : (rowScatterDims N R C wf).start (ix2 e k) idx 1 + (((rowScatterDims N R C wf).window (ix2 e k) 1 : Nat) : Int)
      = (k.val : Int) := by
    rw [start_col, window_col]; simp
  unfold ScatterDims.resultIdx?
  constructor
  · intro h
    split at h
    · rename_i hin
      have hf := Option.some.inj h
      have e0 : ((rowScatterDims N R C wf).start (ix2 e k) idx 0
          + (((rowScatterDims N R C wf).window (ix2 e k) 0 : Nat) : Int)).toNat = p.val :=
        congrArg (fun f : (⟨2, ![N, C]⟩ : Shape).Idx => (f 0).val) hf
      have e1 : ((rowScatterDims N R C wf).start (ix2 e k) idx 1
          + (((rowScatterDims N R C wf).window (ix2 e k) 1 : Nat) : Int)).toNat = k'.val :=
        congrArg (fun f : (⟨2, ![N, C]⟩ : Shape).Idx => (f 1).val) hf
      have hn := (hin 0).1
      rw [h0] at e0 hn
      rw [h1] at e1
      refine ⟨by omega, Fin.ext (by omega)⟩
    · exact absurd h (by simp)
  · rintro ⟨hv, rfl⟩
    have hin : ∀ a, 0 ≤ (rowScatterDims N R C wf).start (ix2 e k) idx a + ((rowScatterDims N R C wf).window (ix2 e k) a : Int)
        ∧ (rowScatterDims N R C wf).start (ix2 e k) idx a + ((rowScatterDims N R C wf).window (ix2 e k) a : Int)
          < ((⟨2, ![N, C]⟩ : Shape).size a : Int) := by
      intro a
      match a with
      | ⟨0, _⟩ =>
        show 0 ≤ (rowScatterDims N R C wf).start (ix2 e k) idx 0 + (((rowScatterDims N R C wf).window (ix2 e k) 0 : Nat) : Int)
          ∧ (rowScatterDims N R C wf).start (ix2 e k) idx 0 + (((rowScatterDims N R C wf).window (ix2 e k) 0 : Nat) : Int)
            < ((N : Nat) : Int)
        rw [h0, hv]
        have := p.isLt
        omega
      | ⟨1, _⟩ =>
        show 0 ≤ (rowScatterDims N R C wf).start (ix2 e k) idx 1 + (((rowScatterDims N R C wf).window (ix2 e k) 1 : Nat) : Int)
          ∧ (rowScatterDims N R C wf).start (ix2 e k) idx 1 + (((rowScatterDims N R C wf).window (ix2 e k) 1 : Nat) : Int)
            < ((C : Nat) : Int)
        rw [h1]
        have := k.isLt
        omega
    rw [dif_pos hin]
    refine congrArg some ?_
    funext a
    refine Fin.ext ?_
    match a with
    | ⟨0, _⟩ =>
      show ((rowScatterDims N R C wf).start (ix2 e k) idx 0
        + (((rowScatterDims N R C wf).window (ix2 e k) 0 : Nat) : Int)).toNat = p.val
      rw [h0, hv]
      exact Int.toNat_natCast _
    | ⟨1, _⟩ =>
      show ((rowScatterDims N R C wf).start (ix2 e k) idx 1
        + (((rowScatterDims N R C wf).window (ix2 e k) 1 : Nat) : Int)).toNat = k.val
      rw [h1]
      exact Int.toNat_natCast _

/-- The accumulating scatter read at (p, k): the operand's element plus the sum, over the update rows e whose word
    idx[e, 0] read signed is the row p, of the update's element (e, k). -/
theorem scatterAdd_rows_apply {N R C w : Nat} {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (k : Fin C) :
    Host.scatterAdd (F := Ideal) (rowScatterDims N R C wf) x idx upd (ix2 p k)
      = x (ix2 p k) + ∑ e ∈ Finset.univ.filter
          (fun e : Fin R => (idx (ix2 e (0 : Fin 1))).toInt = (p.val : Int)), upd (ix2 e k) := by
  show Ideal.hostScatterAdd (rowScatterDims N R C wf) x idx upd (ix2 p k) = _
  unfold Ideal.hostScatterAdd
  refine congrArg (fun t => x (ix2 p k) + t) ?_
  rw [Finset.sum_filter, Finset.sum_filter, sum_idx2]
  refine Finset.sum_congr rfl fun e _ => ?_
  by_cases hv : (idx (ix2 e (0 : Fin 1))).toInt = (p.val : Int)
  · rw [if_pos hv, Finset.sum_eq_single k]
    · rw [if_pos ((resultIdx_rows_iff wf idx e k p k).mpr ⟨hv, rfl⟩)]
    · intro b _ hb
      rw [if_neg]
      intro h
      exact hb ((resultIdx_rows_iff wf idx e b p k).mp h).2
    · intro h
      exact absurd (Finset.mem_univ _) h
  · rw [if_neg hv]
    refine Finset.sum_eq_zero fun b _ => ?_
    rw [if_neg]
    intro h
    exact hv ((resultIdx_rows_iff wf idx e b p k).mp h).1

end Add

end Cert.RowTakeAdd

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.LibGraphAgg.lean ====
/-
  One aggregation step of a graph convolution, read at an entry.

  For an array h : [N, C], a column S of source words and a column D of destination words (both [R, 1]) and edge
  weights nv : [R], the step gathers the rows h[S], scales row e by nv e (the weights kept as a column and repeated
  along the C columns), and accumulates the scaled rows into a zero array [N, C] at the destination words.  Entry
  (p, k) of the result is 0 plus the sum, over the edges e whose destination word denotes p, of
  h (row taken by S e, k) · nv e.  Which edges reach p, and which row an edge takes, do not depend on C.
-/
import proofs.«129788_j32727650795996_2_alg».proof.Proof.LibRowTakeAdd
import proofs.«129788_j32727650795996_2_alg».proof.Proof.LibKeepdims
import Idealize.ShloMosaic.PureOps.Ideal.Laws

noncomputable section

open scoped BigOperators

namespace Cert.GraphAgg

open Idealize.ShloMosaic Idealize.ShloMosaic.ValueIdx Cert.RowTakeAdd

/-- The edges whose destination word, read signed, is the row p. -/
def into {N R : Nat} (D : IVec ⟨2, ![R, 1]⟩ 32) (p : Fin N) : Finset (Fin R) :=
  Finset.univ.filter fun e : Fin R => (D (ix2 e (0 : Fin 1))).toInt = (p.val : Int)

/-- A zero constant repeated over any shape reads 0 at every index. -/
theorem zeros_apply {s : Shape} (hb : (⟨0, ![]⟩ : Shape).BroadcastsInDim s ![]) (i : s.Idx) :
    broadcastInDim s ![] hb (constant (F := Ideal) ⟨0, ![]⟩ .f32 0x00000000#32) i = 0 := by
  rw [broadcastInDim_apply _ hb _ i ix0 (fun a => a.elim0)]
  exact Ideal.ofBits_zero_f32

/-- The aggregation at entry (p, k). -/
theorem agg_apply {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (hb0 : (⟨0, ![]⟩ : Shape).BroadcastsInDim ⟨2, ![N, C]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1])
    (D S : IVec ⟨2, ![R, 1]⟩ 32) (nv : FVec Ideal ⟨1, ![R]⟩ .f32) (h : FVec Ideal ⟨2, ![N, C]⟩ .f32)
    (p : Fin N) (k : Fin C) :
    Host.scatterAdd (F := Ideal) (rowScatterDims N R C wfS)
        (broadcastInDim ⟨2, ![N, C]⟩ ![] hb0 (constant (F := Ideal) ⟨0, ![]⟩ .f32 0x00000000#32)) D
        (mulf (Host.gather (rowGatherDims N R C wfG) h S)
          (broadcastInDim ⟨2, ![R, C]⟩ ![0, 1] hb2 (broadcastInDim ⟨2, ![R, 1]⟩ ![0] hb1 nv))) (ix2 p k)
      = 0 + ∑ e ∈ into D p, h (ix2 (takeRow N hN (S (ix2 e (0 : Fin 1)))) k) * nv (ix1 e) := by
  rw [scatterAdd_rows_apply wfS, zeros_apply hb0]
  refine congrArg (fun t => (0 : EReal) + t) (Finset.sum_congr rfl fun e _ => ?_)
  rw [mulf_apply, gather_rows_apply hN wfG, Cert.Keepdims.host_column_repeat_apply, Cert.Keepdims.host_column_apply]

end Cert.GraphAgg

end
-- ==== Proof.LibFlatAdd.lean ====
/-
  Adding numbers into a one-axis array at a column of index words.

  What a count, or a sum, by destination lowers to, for an operand [N], a column of index words [R, 1] and
  updates [R]: an accumulating scatter of single elements.

  The scatter sends update e to the operand position idx[e, 0], read as a signed integer and not clamped; an
  update whose word is not a position of the operand is dropped. So the accumulated result at p is the operand's
  element plus the sum, over the updates e whose word denotes p, of the update's element e.
-/
import Idealize.ShloMosaic.Lib.ValueIdx

noncomputable section

open scoped BigOperators

namespace Cert.FlatAdd

open Idealize.ShloMosaic Idealize.ShloMosaic.ValueIdx

/-- A one-axis index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scatter's dimension numbers for an operand [N], scatter indices [R, 1] and updates [R]: one index
    component per update, naming operand axis 0, which is inserted; the updates have no window axis. -/
abbrev flatScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of update e starts at the word idx[e, 0], read signed. -/
private theorem start_flat {N R w : Nat} (wf : ScatterDims.WF ⟨1, ![N]⟩ ⟨2, ![R, 1]⟩ ⟨1, ![R]⟩ [] [0] [0] 1)
    (idx : IVec ⟨2, ![R, 1]⟩ w) (e : Fin R) :
    (flatScatterDims N R wf).start (ix1 e) idx 0 = (idx (ix2 e (0 : Fin 1))).toInt := by
  unfold ScatterDims.start
  rw [dif_pos (show (0 : Fin 1) ∈ (flatScatterDims N R wf).scatterDimsToOperandDims from List.mem_singleton.mpr rfl)]
  have hsi : (flatScatterDims N R wf).siIdx (ix1 e) ⟨List.idxOf (0 : Fin 1) (flatScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: its window coordinate is 0. -/
private theorem window_flat {N R : Nat} (wf : ScatterDims.WF ⟨1, ![N]⟩ ⟨2, ![R, 1]⟩ ⟨1, ![R]⟩ [] [0] [0] 1)
    (e : Fin R) :
    (flatScatterDims N R wf).window (ix1 e) 0 = 0 := by
  unfold ScatterDims.window
  rw [dif_neg]
  intro h
  have := (List.mem_filter.1 h).2
  simp at this

/-- Where update e lands: at p exactly when the word idx[e, 0], read signed, is the position p. -/
theorem resultIdx_flat_iff {N R w : Nat} (wf : ScatterDims.WF ⟨1, ![N]⟩ ⟨2, ![R, 1]⟩ ⟨1, ![R]⟩ [] [0] [0] 1)
    (idx : IVec ⟨2, ![R, 1]⟩ w) (e : Fin R) (p : Fin N) :
    (flatScatterDims N R wf).resultIdx? (ix1 e) idx = some (ix1 p)
      ↔ (idx (ix2 e (0 : Fin 1))).toInt = (p.val : Int) := by
  have h0 : (flatScatterDims N R wf).start (ix1 e) idx 0 + (((flatScatterDims N R wf).window (ix1 e) 0 : Nat) : Int)
      = (idx (ix2 e (0 : Fin 1))).toInt := by
    rw [start_flat, window_flat]; simp
  unfold ScatterDims.resultIdx?
  constructor
  · intro h
    split at h
    · rename_i hin
      have hf := Option.some.inj h
      have e0 : ((flatScatterDims N R wf).start (ix1 e) idx 0
          + (((flatScatterDims N R wf).window (ix1 e) 0 : Nat) : Int)).toNat = p.val :=
        congrArg (fun f : (⟨1, ![N]⟩ : Shape).Idx => (f 0).val) hf
      have hn := (hin 0).1
      rw [h0] at e0 hn
      omega
    · exact absurd h (by simp)
  · intro hv
    have hin : ∀ a, 0 ≤ (flatScatterDims N R wf).start (ix1 e) idx a + ((flatScatterDims N R wf).window (ix1 e) a : Int)
        ∧ (flatScatterDims N R wf).start (ix1 e) idx a + ((flatScatterDims N R wf).window (ix1 e) a : Int)
          < ((⟨1, ![N]⟩ : Shape).size a : Int) := by
      intro a
      match a with
      | ⟨0, _⟩ =>
        show 0 ≤ (flatScatterDims N R wf).start (ix1 e) idx 0 + (((flatScatterDims N R wf).window (ix1 e) 0 : Nat) : Int)
          ∧ (flatScatterDims N R wf).start (ix1 e) idx 0 + (((flatScatterDims N R wf).window (ix1 e) 0 : Nat) : Int)
            < ((N : Nat) : Int)
        rw [h0, hv]
        have := p.isLt
        omega
    rw [dif_pos hin]
    refine congrArg some ?_
    funext a
    refine Fin.ext ?_
    match a with
    | ⟨0, _⟩ =>
      show ((flatScatterDims N R wf).start (ix1 e) idx 0
        + (((flatScatterDims N R wf).window (ix1 e) 0 : Nat) : Int)).toNat = p.val
      rw [h0, hv]
      exact Int.toNat_natCast _

/-- The accumulating scatter read at p: the operand's element plus the sum, over the updates e whose word
    idx[e, 0] read signed is the position p, of the update's element e. -/
theorem scatterAdd_flat_apply {N R w : Nat} {φ : FTy} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (p : Fin N) :
    Host.scatterAdd (F := Ideal) (flatScatterDims N R wf) x idx upd (ix1 p)
      = x (ix1 p) + ∑ e ∈ Finset.univ.filter
          (fun e : Fin R => (idx (ix2 e (0 : Fin 1))).toInt = (p.val : Int)), upd (ix1 e) := by
  show Ideal.hostScatterAdd (flatScatterDims N R wf) x idx upd (ix1 p) = _
  unfold Ideal.hostScatterAdd
  refine congrArg (fun t => x (ix1 p) + t) ?_
  rw [Finset.sum_filter, Finset.sum_filter, sum_idx1]
  refine Finset.sum_congr rfl fun e _ => ?_
  exact if_congr (resultIdx_flat_iff wf idx e p) rfl rfl

end Cert.FlatAdd

end
-- ==== Proof.LibFlatTakePut.lean ====
/-
  Taking from and putting into a flat array at a column of index words.

  What x[idx] and x.at[idx].set(v) of a flat array x : [N] at an integer vector idx : [R] lower to, once the index
  vector is seen as a column [R, 1]: a gather, and a scatter, with one index component per row.

  The gather reads, for result position r, the operand at the word idx[r, 0] taken as a signed integer and clamped
  into [0, N - 1]. The scatter sends update position r to the operand position idx[r, 0], taken as a signed integer
  and not clamped; the update is dropped when that integer is not a position of the operand. So when the word denotes,
  as a signed integer, a position k of the operand, the update at r lands at k.
-/
import Idealize.ShloMosaic.Lib.ValueIdx

noncomputable section

namespace Cert.FlatTakePut

open Idealize.ShloMosaic Idealize.ShloMosaic.ValueIdx

/-- The index [r, 0] of the column of words, for position r of the vector. -/
abbrev colIdx {R : Nat} (j : (⟨1, ![R]⟩ : Shape).Idx) : (⟨2, ![R, 1]⟩ : Shape).Idx :=
  fun a => match a with | ⟨0, _⟩ => ⟨(j 0).val, (j 0).isLt⟩ | ⟨1, _⟩ => ⟨0, Nat.one_pos⟩

section Take
variable {α : Type}

/-- The gather's dimension numbers for an operand [N], start indices [R, 1] and result [R]. -/
abbrev takeFlatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position `j`: the operand at the word `idx[j, 0]`, read signed and clamped into [0, N - 1]. -/
theorem gather_flat_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (takeFlatDims N R wf) x idx j = x (ix1 ⟨min (idx (colIdx j)).toInt.toNat (N - 1), by omega⟩) := by
  unfold Host.gather
  refine congrArg x ?_
  funext a
  obtain rfl : a = 0 := Subsingleton.elim _ _
  refine Fin.ext ?_
  show (takeFlatDims N R wf).start j idx 0 + (takeFlatDims N R wf).batchCoord j 0 + (takeFlatDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeFlatDims N R wf).startIndexMap from List.mem_singleton.mpr rfl)]
  have hsi : (takeFlatDims N R wf).siIdx j ⟨List.idxOf (0 : Fin 1) (takeFlatDims N R wf).startIndexMap,
      List.idxOf_lt_length_iff.2 (List.mem_singleton.mpr rfl)⟩ = colIdx j := by
    funext b; refine Fin.ext ?_
    match b with
    | ⟨0, _⟩ => rfl
    | ⟨1, _⟩ => rfl
  rw [hsi]
  rfl

end Take

section Put

/-- The scatter's dimension numbers for an operand [N], scatter indices [R, 1] and updates [R]. -/
abbrev putFlatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `j` lands: when the word `idx[j, 0]`, read signed, is the position `k` of the operand, at `k`. -/
theorem resultIdx_flat {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (k : Fin N)
    (hk : (idx (colIdx j)).toInt = (k.val : Int)) :
    (putFlatDims N R wf).resultIdx? j idx = some (ix1 k) := by
  have hs : ∀ a : Fin 1, (putFlatDims N R wf).start j idx a + ((putFlatDims N R wf).window j a : Int) = (k.val : Int) := by
    intro a
    obtain rfl : a = 0 := Subsingleton.elim _ _
    have hw : (putFlatDims N R wf).window j 0 = 0 := by
      unfold ScatterDims.window
      rw [dif_neg]
      intro h
      have := (List.mem_filter.1 h).2
      simp at this
    have hst : (putFlatDims N R wf).start j idx 0 = (k.val : Int) := by
      unfold ScatterDims.start
      rw [dif_pos (show (0 : Fin 1) ∈ (putFlatDims N R wf).scatterDimsToOperandDims from List.mem_singleton.mpr rfl)]
      have hsi : (putFlatDims N R wf).siIdx j ⟨List.idxOf (0 : Fin 1) (putFlatDims N R wf).scatterDimsToOperandDims,
          List.idxOf_lt_length_iff.2 (List.mem_singleton.mpr rfl)⟩ = colIdx j := by
        funext b; refine Fin.ext ?_
        match b with
        | ⟨0, _⟩ => rfl
        | ⟨1, _⟩ => rfl
      rw [hsi, hk]
    rw [hst, hw]
    simp
  unfold ScatterDims.resultIdx?
  have hin : ∀ a : Fin 1, 0 ≤ (putFlatDims N R wf).start j idx a + ((putFlatDims N R wf).window j a : Int)
      ∧ (putFlatDims N R wf).start j idx a + ((putFlatDims N R wf).window j a : Int) < ((⟨1, ![N]⟩ : Shape).size a : Int) := by
    intro a
    rw [hs a]
    obtain rfl : a = 0 := Subsingleton.elim _ _
    exact ⟨Int.natCast_nonneg _, by exact_mod_cast k.isLt⟩
  rw [dif_pos hin]
  refine congrArg some ?_
  funext a
  obtain rfl : a = 0 := Subsingleton.elim _ _
  refine Fin.ext ?_
  show ((putFlatDims N R wf).start j idx 0 + ((putFlatDims N R wf).window j 0 : Int)).toNat = k.val
  rw [hs 0]
  exact Int.toNat_natCast _

end Put

end Cert.FlatTakePut

end
-- ==== Proof.Algebra.lean ====
/-
  The one algebraic law of the certificate, and the closure facts it needs.

  Aggregating before or after a product with a matrix gives the same array: for a finite set A of edges, a source
  map s, edge weights n, an array h and a column w of a matrix,
      ∑ k, (∑ e ∈ A, h (s e) k · n e) · w k  =  ∑ e ∈ A, (∑ k, h (s e) k · w k) · n e .
  Over the reals this is distributivity and an exchange of two finite sums.  On the extended reals distributivity
  fails at the infinities, so the law is stated for entries that are real numbers, and is proved by moving the
  coercion ℝ → EReal outside the sums and products.  Real entries are closed under +, ·, max and finite sums.
-/
import Idealize.ShloMosaic.PureOps.Ideal
import Idealize.ShloMosaic.PureOps.Ideal.Laws
import Idealize.ShloMosaic.Lib.ValueIdx

noncomputable section

open scoped BigOperators

namespace Cert.Gcn.Alg

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- Over the reals: distributivity, then the two finite sums exchanged. -/
theorem swap_real {ε ν κ : Type*} [Fintype κ] (A : Finset ε) (s : ε → ν) (n : ε → ℝ) (h : ν → κ → ℝ) (w : κ → ℝ) :
    ∑ k, (∑ e ∈ A, h (s e) k * n e) * w k = ∑ e ∈ A, (∑ k, h (s e) k * w k) * n e := by
  simp only [Finset.sum_mul]
  rw [Finset.sum_comm]
  exact Finset.sum_congr rfl fun e _ => Finset.sum_congr rfl fun k _ => by ring

/-- On the extended reals, for real entries; each aggregation starts from 0 as an accumulating scatter does. -/
theorem swap_ereal {ε ν κ : Type*} [Fintype κ] (A : Finset ε) (s : ε → ν) (n : ε → EReal) (h : ν → κ → EReal) (w : κ → EReal)
    (hn : ∀ e, IsReal (n e)) (hh : ∀ q k, IsReal (h q k)) (hw : ∀ k, IsReal (w k)) :
    ∑ k, (0 + ∑ e ∈ A, h (s e) k * n e) * w k = 0 + ∑ e ∈ A, (∑ k, h (s e) k * w k) * n e := by
  choose nr hnr using hn
  choose hr hhr using hh
  choose wr hwr using hw
  simp only [hnr, hhr, hwr, zero_add, ← EReal.coe_mul, ← coe_sum]
  exact congrArg _ (swap_real A s nr hr wr)

/-- The inverse square root of a real d where d > 0, and 0 elsewhere, is a real number: the selection reads the
    root only on the side of the comparison where it is finite. -/
theorem select_rsqrt_real (d : ℝ) :
    IsReal (Idealize.ShloMosaic.Scalar.select (Idealize.ShloMosaic.Ideal.cmp .ogt (d : EReal) 0)
      (Idealize.ShloMosaic.Ideal.rsqrt (d : EReal)) 0) := by
  by_cases hpos : 0 < d
  · have hc : Idealize.ShloMosaic.Ideal.cmp .ogt (d : EReal) 0 = 1#1 := by
      unfold Idealize.ShloMosaic.Ideal.cmp
      simp [hpos]
    rw [hc, Idealize.ShloMosaic.ValueIdx.select_one, Idealize.ShloMosaic.Ideal.rsqrt_coe, if_neg (not_lt.mpr hpos.le), if_neg hpos.ne']
    exact isReal_coe _
  · have hc : Idealize.ShloMosaic.Ideal.cmp .ogt (d : EReal) 0 = 0#1 := by
      unfold Idealize.ShloMosaic.Ideal.cmp
      simp [hpos]
    rw [hc, Idealize.ShloMosaic.ValueIdx.select_zero]
    exact isReal_zero

end Cert.Gcn.Alg

end
-- ==== Proof.KRead.lean ====
/-
  The kernel's sparse stage read at an entry, and what is real in it.

  Entry (p, k) of agg h is 0 plus the sum, over the edges e whose destination word denotes p, of
  h (row taken by the source word of e, k) · norm e.  The in-degree of a node is a finite sum of ones, a real number;
  its inverse square root is taken only where the degree is positive, so it is a real number too (0 elsewhere); an
  edge weight is a product of two of them.
-/
import proofs.«129788_j32727650795996_2_alg».proof.Proof.KTerm
import proofs.«129788_j32727650795996_2_alg».proof.Proof.LibGraphAgg
import proofs.«129788_j32727650795996_2_alg».proof.Proof.LibFlatAdd
import proofs.«129788_j32727650795996_2_alg».proof.Proof.LibFlatTakePut
import proofs.«129788_j32727650795996_2_alg».proof.Proof.Algebra

noncomputable section

open scoped BigOperators

namespace Cert.Gcn.K

open Idealize.ShloMosaic Idealize.ShloMosaic.ValueIdx Cert.KernelIdeal Cert.KernelIdeal.Facts₀ Cert.KernelIdeal.Facts
open Cert.Gcn.Alg Cert.GraphAgg Cert.RowTakeAdd

variable [Cert.KernelIdeal.Facts] (E : IVec S2x1600000 32)

/-- The f32 pattern of 1.0 denotes the real number 1. -/
theorem one_pattern : Ideal.ofBits .f32 0x3F800000#32 = ((1 : ℝ) : EReal) := by
  simp [Ideal.ofBits, Ideal.ieee, -EReal.coe_mul]
  norm_num

/-- The aggregation at entry (p, k). -/
theorem agg_at (h : FVec Ideal S100000x16 .f32) (p : Fin 100000) (k : Fin 16) :
    agg E h (ix2 p k) = 0 + ∑ e ∈ into (col (dst E)) p,
      h (ix2 (takeRow 100000 (by decide) (col (wrap (src E)) (ix2 e (0 : Fin 1)))) k) * norm E (ix1 e) := by
  unfold agg normB
  exact agg_apply (by decide) scatter_S100000x16_S1700000x1_S1700000x16_1_0_0_1_wf
    gather_S100000x16_S1700000x1_S1700000x16_1_0_n_n_0_1_116_wf bcast_S_S100000x16 bcast_S1700000_S1700000x1_0
    bcast_S1700000x1_S1700000x16_0_1 (col (dst E)) (col (wrap (src E))) (norm E) h p k

/-- The in-degree of node p is a real number. -/
theorem deg_real (p : Fin 100000) : IsReal (deg E (ix1 p)) := by
  unfold deg
  generalize col (dst E) = c
  rw [show Host.scatterAdd (F := Ideal) scatter_S100000_S1700000x1_S1700000_n_0_0_1 = Host.scatterAdd (F := Ideal)
    (Cert.FlatAdd.flatScatterDims 100000 1700000 scatter_S100000_S1700000x1_S1700000_n_0_0_1_wf) from rfl,
    Cert.FlatAdd.scatterAdd_flat_apply]
  refine IsReal.add ?_ (isReal_sum _ _ fun e _ => ?_)
  · rw [zeros_apply]; exact isReal_zero
  · rw [broadcastInDim_apply _ bcast_S_S1700000 _ (ix1 e) ix0 (fun a => a.elim0)]
    exact ⟨1, one_pattern⟩

/-- For any array dg whose entry p is a real number: dg^(-1/2) where dg > 0, else 0, is a real number at p. -/
theorem dinv_of_real (dg : FVec Ideal S100000 .f32) (p : Fin 100000) (hd : IsReal (dg (ix1 p))) :
    IsReal (select (cmpf .ogt dg (broadcastInDim S100000 ![] bcast_S_S100000 (constant (F := Ideal) S_ .f32 0x00000000#32)))
      (Host.rsqrt (F := Ideal) dg)
      (broadcastInDim S100000 ![] bcast_S_S100000 (id (constant (F := Ideal) S_ .f32 0x00000000#32))) (ix1 p)) := by
  obtain ⟨d, hd⟩ := hd
  have hz : broadcastInDim S100000 ![] bcast_S_S100000 (constant (F := Ideal) S_ .f32 0x00000000#32) (ix1 p) = 0 :=
    zeros_apply bcast_S_S100000 (ix1 p)
  have e : select (cmpf .ogt dg (broadcastInDim S100000 ![] bcast_S_S100000 (constant (F := Ideal) S_ .f32 0x00000000#32)))
      (Host.rsqrt (F := Ideal) dg)
      (broadcastInDim S100000 ![] bcast_S_S100000 (id (constant (F := Ideal) S_ .f32 0x00000000#32))) (ix1 p)
      = Scalar.select (Ideal.cmp .ogt (dg (ix1 p))
          (broadcastInDim S100000 ![] bcast_S_S100000 (constant (F := Ideal) S_ .f32 0x00000000#32) (ix1 p)))
        (Ideal.rsqrt (dg (ix1 p)))
        (broadcastInDim S100000 ![] bcast_S_S100000 (constant (F := Ideal) S_ .f32 0x00000000#32) (ix1 p)) := rfl
  rw [e, hz, hd]
  exact select_rsqrt_real d

/-- The inverse square root of the degree, 0 where the degree is not positive, is a real number. -/
theorem dinv_real (p : Fin 100000) : IsReal (dinv E (ix1 p)) :=
  dinv_of_real (deg E) p (deg_real E p)

/-- Every edge weight is a real number. -/
theorem norm_real (e : Fin 1700000) : IsReal (norm E (ix1 e)) := by
  have hdv : ∀ p : Fin 100000, IsReal (dinv E (ix1 p)) := dinv_real E
  unfold norm
  generalize dinv E = dv at hdv
  generalize col (wrap (src E)) = c1
  generalize col (wrap (dst E)) = c2
  rw [mulf_apply]
  rw [show Host.gather gather_S100000_S1700000x1_S1700000_n_0_n_n_0_1_1 = Host.gather
    (Cert.FlatTakePut.takeFlatDims 100000 1700000 gather_S100000_S1700000x1_S1700000_n_0_n_n_0_1_1_wf) from rfl,
    Cert.FlatTakePut.gather_flat_apply (by decide), Cert.FlatTakePut.gather_flat_apply (by decide)]
  exact (hdv _).mul (hdv _)

end Cert.Gcn.K

end
-- ==== Proof.Cross.lean ====
/-
  The two programs spell the sparse stage with the same operations on the same edge table, each over its own copy
  of the shapes and side conditions: the terms are the same, by unfolding the names.
-/
import proofs.«129788_j32727650795996_2_alg».proof.Proof.KTerm
import proofs.«129788_j32727650795996_2_alg».proof.Proof.RTerm

noncomputable section

namespace Cert.Gcn.Cross

open Idealize.ShloMosaic

variable [Cert.KernelIdeal.Facts] [Cert.ReferenceIdeal.Facts] (E : IVec ⟨2, ![2, 1600000]⟩ 32)

/-- The destination column. -/
theorem dcol_eq : (R.col (R.dst E) : IVec ⟨2, ![1700000, 1]⟩ 32) = K.col (K.dst E) := rfl

/-- The source column, negative words moved up. -/
theorem scol_eq : (R.col (R.wrap (R.src E)) : IVec ⟨2, ![1700000, 1]⟩ 32) = K.col (K.wrap (K.src E)) := rfl

/-- The edge weights. -/
theorem norm_eq : (R.norm E : FVec Ideal ⟨1, ![1700000]⟩ .f32) = K.norm E := rfl

/-- Layer 1's aggregation. -/
theorem agg16_eq (h : FVec Ideal ⟨2, ![100000, 16]⟩ .f32) :
    (R.agg16 E h : FVec Ideal ⟨2, ![100000, 16]⟩ .f32) = K.agg E h := rfl

end Cert.Gcn.Cross

end
-- ==== Proof.LibPlainDot.lean ====
/-
  A plain host matrix product read at an entry.

  For the dimension numbers of an ordinary product — an [a, n] array times an [n, b] array, contracting the second
  axis of the left with the first axis of the right, no batch axis — the host's `dot_general` is, on the extended
  reals, at (p, q) the sum over k of left (p, k) · right (k, q).  The extents are variables.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- The host's ordinary product: at (p, q) the sum over k of left (p, k) · right (k, q). -/
theorem host_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (dims wf) prec L R (ix2 p q) = ∑ k : Fin n, L (ix2 p k) * R (ix2 k q) := by
  show FloatOps.dotGeneral (dims wf) prec .single L R (ix2 p q) = _
  rw [Ideal.dotGeneral_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainDot

end
-- ==== Proof.Layer1.lean ====
/-
  Layer 1 of the network is the same array in the two programs, and its entries are real numbers.

  Both programs compute  relu (agg (x W1) + b1),  where agg is the aggregation over the edges.  The kernel's program
  takes the product x W1 entry by entry as the sum over k of x (p, k) · W1 (k, q) and reads the bias through a row
  [1, 16] at (0, q); the reference takes the host's product, which at (p, q) is the same sum, and reads the bias
  through a row [1, 16] repeated over the 100000 rows, which at (p, q) is again b1 q.  The aggregation is the same
  function in both.  An entry of the result is built from the entries of x, W1, b1 and the edge weights by finite
  sums, products, one addition of 0 and one maximum with 0: if the inputs' entries are real numbers, so is it.
-/
import proofs.«129788_j32727650795996_2_alg».proof.Proof.Cross
import proofs.«129788_j32727650795996_2_alg».proof.Proof.Algebra
import proofs.«129788_j32727650795996_2_alg».proof.Proof.LibPlainDot
import proofs.«129788_j32727650795996_2_alg».proof.Proof.KRead
import Idealize.ShloMosaic.Lib.ValueLayout
import Idealize.ShloMosaic.Lib.Pipeline.Value

noncomputable section

open scoped BigOperators

namespace Cert.Gcn

open Idealize.ShloMosaic Idealize.ShloMosaic.ValueIdx

variable [Cert.KernelIdeal.Facts] [Cert.ReferenceIdeal.Facts]

/-- The host's product x W1 is, entry by entry, the sum over k of x (p, k) · W1 (k, q). -/
theorem host_product1 (x : FVec Ideal ⟨2, ![100000, 128]⟩ .f32) (W1 : FVec Ideal ⟨2, ![128, 16]⟩ .f32) :
    (Host.dotGeneral (F := Ideal) Cert.ReferenceIdeal.dot_S100000x128_S128x16_S100000x16_1_0_0_1_n_n none x W1
      : FVec Ideal ⟨2, ![100000, 16]⟩ .f32) = G0 x W1 := by
  funext j
  obtain ⟨p, q, rfl⟩ : ∃ (p : Fin 100000) (q : Fin 16), j = ix2 p q := ⟨j 0, j 1, eq_ix2 j⟩
  rw [G0_apply]
  exact Cert.PlainDot.host_apply Cert.ReferenceIdeal.Facts₀.dot_S100000x128_S128x16_S100000x16_1_0_0_1_n_n_wf none x W1 p q

/-- The bias kept as a row [1, 16] reads b1 k at (0, k). -/
theorem bias_row (b1 : FVec Ideal ⟨1, ![16]⟩ .f32) (k : Fin 16) :
    (shapeCast Cert.KernelIdeal.S1x16 b1 Cert.KernelIdeal.Facts₀.shapeCasts_S16_S1x16 : FVec Ideal ⟨2, ![1, 16]⟩ .f32)
      (ix2 (0 : Fin 1) k) = b1 (ix1 k) :=
  shapeCast_a_1a_apply b1 Cert.KernelIdeal.Facts₀.shapeCasts_S16_S1x16 0 k

/-- The bias kept as a row [1, 16] and repeated over the 100000 rows reads b1 k at (p, k). -/
theorem bias_rows (b1 : FVec Ideal ⟨1, ![16]⟩ .f32) (p : Fin 100000) (k : Fin 16) :
    (broadcastInDim Cert.ReferenceIdeal.S100000x16 ![0, 1] Cert.ReferenceIdeal.Facts₀.bcast_S1x16_S100000x16_0_1
      (broadcastInDim Cert.ReferenceIdeal.S1x16 ![1] Cert.ReferenceIdeal.Facts₀.bcast_S16_S1x16_1 b1)
      : FVec Ideal ⟨2, ![100000, 16]⟩ .f32) (ix2 p k) = b1 (ix1 k) := by
  refine (broadcastInDim_apply _ Cert.ReferenceIdeal.Facts₀.bcast_S1x16_S100000x16_0_1 _ (ix2 p k) (ix2 (0 : Fin 1) k)
    fun a => ?_).trans ?_
  · match a with
    | ⟨0, _⟩ => show (0 : ℕ) = if (1 : ℕ) = 1 then 0 else p.val; rw [if_pos rfl]
    | ⟨1, _⟩ => show k.val = if (16 : ℕ) = 1 then 0 else k.val; rw [if_neg (by decide)]
  · refine broadcastInDim_apply _ Cert.ReferenceIdeal.Facts₀.bcast_S16_S1x16_1 b1 (ix2 (0 : Fin 1) k) (ix1 k) fun a => ?_
    match a with
    | ⟨0, _⟩ => show k.val = if (16 : ℕ) = 1 then 0 else k.val; rw [if_neg (by decide)]

/-- Layer 1: relu (agg (x W1) + b1) as the kernel's program spells it is the reference's array. -/
theorem hidden_eq (E : IVec ⟨2, ![2, 1600000]⟩ 32) (x : FVec Ideal ⟨2, ![100000, 128]⟩ .f32)
    (W1 : FVec Ideal ⟨2, ![128, 16]⟩ .f32) (b1 : FVec Ideal ⟨1, ![16]⟩ .f32) :
    (G1 (K.agg E (G0 x W1)) (shapeCast _ b1 Cert.KernelIdeal.Facts₀.shapeCasts_S16_S1x16)
      : FVec Ideal ⟨2, ![100000, 16]⟩ .f32) = R.hidden E x W1 b1 := by
  funext i
  obtain ⟨p, k, rfl⟩ : ∃ (p : Fin 100000) (k : Fin 16), i = ix2 p k := ⟨i 0, i 1, eq_ix2 i⟩
  have hagg : R.agg16 E (Host.dotGeneral (F := Ideal) Cert.ReferenceIdeal.dot_S100000x128_S128x16_S100000x16_1_0_0_1_n_n none x W1)
      = K.agg E (G0 x W1) := by
    rw [host_product1]
    exact Cross.agg16_eq E (G0 x W1)
  rw [G1_apply, bias_row]
  unfold R.hidden
  rw [maximumf_apply, addf_apply, Cert.GraphAgg.zeros_apply, hagg, bias_rows]

/-- If the entries of x, W1 and b1 are real numbers, so are the entries of layer 1. -/
theorem hidden_real (E : IVec ⟨2, ![2, 1600000]⟩ 32) (x : FVec Ideal ⟨2, ![100000, 128]⟩ .f32)
    (W1 : FVec Ideal ⟨2, ![128, 16]⟩ .f32) (b1 : FVec Ideal ⟨1, ![16]⟩ .f32)
    (hx : ∀ i, Alg.IsReal (x i)) (hW1 : ∀ i, Alg.IsReal (W1 i)) (hb1 : ∀ i, Alg.IsReal (b1 i)) :
    ∀ i, Alg.IsReal (R.hidden E x W1 b1 i) := by
  intro i
  rw [← hidden_eq E x W1 b1]
  obtain ⟨p, k, rfl⟩ : ∃ (p : Fin 100000) (k : Fin 16), i = ix2 p k := ⟨i 0, i 1, eq_ix2 i⟩
  rw [G1_apply, bias_row, K.agg_at E (G0 x W1) p k]
  refine Alg.IsReal.max (Alg.IsReal.add (Alg.IsReal.add Alg.isReal_zero
    (Alg.isReal_sum _ _ fun e _ => Alg.IsReal.mul ?_ (K.norm_real E e))) (hb1 _)) Alg.isReal_zero
  rw [G0_apply]
  exact Alg.isReal_sum _ _ fun j _ => Alg.IsReal.mul (hx _) (hW1 _)

end Cert.Gcn

end
-- ==== Proof.Final.lean ====
/-
  The two programs compute the same array.

  Layer 1 is the same array H in both (Layer1).  For layer 2 the kernel aggregates H over the edges and then
  multiplies by W2, the reference multiplies by W2 and then aggregates: entry (p, f) is
      ∑ k, (0 + ∑ e → p, H (src e, k) · norm e) · W2 (k, f) + b2 f      in the kernel,
      (0 + ∑ e → p, (∑ k, H (src e, k) · W2 (k, f)) · norm e) + b2 f    in the reference,
  the sums over the edges e whose destination word denotes p.  The entries of H, the weights norm and W2 are real
  numbers, so the two agree by distributivity and an exchange of the sums (Algebra).
-/
import proofs.«129788_j32727650795996_2_alg».proof.Proof.KRead
import proofs.«129788_j32727650795996_2_alg».proof.Proof.Cross
import proofs.«129788_j32727650795996_2_alg».proof.Proof.Layer1
import proofs.«129788_j32727650795996_2_alg».proof.Proof.LibPlainDot
import Idealize.ShloMosaic.Lib.ValueLayout

noncomputable section

open scoped BigOperators

namespace Cert.Gcn

open Idealize.ShloMosaic Idealize.ShloMosaic.ValueIdx
open Cert.Gcn.Alg Cert.GraphAgg Cert.RowTakeAdd

variable [Cert.KernelIdeal.Facts] [Cert.ReferenceIdeal.Facts] (E : IVec ⟨2, ![2, 1600000]⟩ 32)

/-- The reference's layer-2 aggregation at entry (p, f), over the kernel's names for the two columns and the
    weights (the same terms: Cross). -/
theorem agg128_at (h : FVec Ideal ⟨2, ![100000, 128]⟩ .f32) (p : Fin 100000) (f : Fin 128) :
    R.agg128 E h (ix2 p f) = 0 + ∑ e ∈ into (K.col (K.dst E)) p,
      h (ix2 (takeRow 100000 (by decide) (K.col (K.wrap (K.src E)) (ix2 e (0 : Fin 1)))) f) * K.norm E (ix1 e) := by
  unfold R.agg128
  rw [Cross.dcol_eq, Cross.scol_eq, Cross.norm_eq]
  generalize K.col (K.dst E) = D
  generalize K.col (K.wrap (K.src E)) = S
  generalize K.norm E = nv
  exact agg_apply (by decide) Cert.ReferenceIdeal.Facts₀.scatter_S100000x128_S1700000x1_S1700000x128_1_0_0_1_wf
    Cert.ReferenceIdeal.Facts₀.gather_S100000x128_S1700000x1_S1700000x128_1_0_n_n_0_1_1128_wf
    Cert.ReferenceIdeal.Facts₀.bcast_S_S100000x128 Cert.ReferenceIdeal.Facts₀.bcast_S1700000_S1700000x1_0
    Cert.ReferenceIdeal.Facts₀.bcast_S1700000x1_S1700000x128_0_1 D S nv h p f

/-- The reference's product with W2 at entry (q, f). -/
theorem dot2_at (H : FVec Ideal ⟨2, ![100000, 16]⟩ .f32) (W2 : FVec Ideal ⟨2, ![16, 128]⟩ .f32) (q : Fin 100000) (f : Fin 128) :
    Host.dotGeneral (F := Ideal) Cert.ReferenceIdeal.dot_S100000x16_S16x128_S100000x128_1_0_0_1_n_n none H W2 (ix2 q f)
      = ∑ k : Fin 16, H (ix2 q k) * W2 (ix2 k f) :=
  Cert.PlainDot.host_apply Cert.ReferenceIdeal.Facts₀.dot_S100000x16_S16x128_S100000x128_1_0_0_1_n_n_wf none H W2 q f

/-- The kernel reads the bias b2 kept as a row [1, 128] at (0, f). -/
theorem bias2_row (b2 : FVec Ideal ⟨1, ![128]⟩ .f32) (f : Fin 128) :
    shapeCast ⟨2, ![1, 128]⟩ b2 Cert.KernelIdeal.Facts₀.shapeCasts_S128_S1x128 (ix2 (0 : Fin 1) f) = b2 (ix1 f) :=
  shapeCast_a_1a_apply b2 _ 0 f

/-- The reference repeats b2 over the rows: entry (p, f) is b2 f. -/
theorem bias2_rows (b2 : FVec Ideal ⟨1, ![128]⟩ .f32) (p : Fin 100000) (f : Fin 128) :
    broadcastInDim ⟨2, ![100000, 128]⟩ ![0, 1] Cert.ReferenceIdeal.Facts₀.bcast_S1x128_S100000x128_0_1
      (broadcastInDim ⟨2, ![1, 128]⟩ ![1] Cert.ReferenceIdeal.Facts₀.bcast_S128_S1x128_1 b2) (ix2 p f) = b2 (ix1 f) := by
  rw [broadcastInDim_apply _ _ _ (ix2 p f) (ix2 (0 : Fin 1) f) (fun ax => by
    match ax with
    | ⟨0, _⟩ => rfl
    | ⟨1, _⟩ => rfl)]
  exact broadcastInDim_apply _ _ b2 (ix2 (0 : Fin 1) f) (ix1 f) (fun ax => by
    match ax with
    | ⟨0, _⟩ => rfl)

/-- The two results are one array, when x, W1, b1 and W2 hold real numbers. -/
theorem out_eq (x : FVec Ideal ⟨2, ![100000, 128]⟩ .f32) (W1 : FVec Ideal ⟨2, ![128, 16]⟩ .f32) (b1 : FVec Ideal ⟨1, ![16]⟩ .f32)
    (W2 : FVec Ideal ⟨2, ![16, 128]⟩ .f32) (b2 : FVec Ideal ⟨1, ![128]⟩ .f32)
    (hx : ∀ i, IsReal (x i)) (hW1 : ∀ i, IsReal (W1 i)) (hb1 : ∀ i, IsReal (b1 i)) (hW2 : ∀ i, IsReal (W2 i)) :
    (K.out E x W1 b1 W2 b2 : FVec Ideal ⟨2, ![100000, 128]⟩ .f32) = R.out E x W1 b1 W2 b2 := by
  have hH := hidden_real E x W1 b1 hx hW1 hb1
  unfold K.out R.out
  rw [hidden_eq E x W1 b1]
  generalize R.hidden E x W1 b1 = H at hH
  funext i
  obtain ⟨p, f, rfl⟩ : ∃ (p : Fin 100000) (f : Fin 128), i = ix2 p f := ⟨i 0, i 1, eq_ix2 i⟩
  rw [G2_apply, addf_apply, agg128_at, bias2_row, bias2_rows]
  refine congrArg (· + b2 (ix1 f)) ?_
  simp only [K.agg_at, dot2_at]
  exact swap_ereal (into (K.col (K.dst E)) p)
    (fun e => takeRow 100000 (by decide) (K.col (K.wrap (K.src E)) (ix2 e (0 : Fin 1))))
    (fun e => K.norm E (ix1 e)) (fun q k => H (ix2 q k)) (fun k => W2 (ix2 k f))
    (K.norm_real E) (fun q k => hH _) (fun k => hW2 _)

end Cert.Gcn

end
-- ==== Proof.lean ====
/-
  A two-layer graph convolution on 100000 nodes and 1600000 edges (one self loop added per node):
      out = Â · relu (Â · (x W1) + b1) · W2 + b2,    Â = D^(-1/2) (A + I) D^(-1/2),
  with D the in-degree.  The kernel's program computes x W1, relu (· + b1) and (·) W2 + b2 in three tiled regions
  (20 row blocks of 5000 rows each) and the normalised aggregation Â (a gather of rows, a scaling by the edge
  weights, an accumulating scatter) between them; since aggregation is linear along the feature axis it aggregates
  layer 2 BEFORE the product with W2, in 16 columns, where the reference aggregates the product, in 128 columns.

  The claim's five parts.  The two kernel programs' frames are the generated ones.  The idealization rewrote
  nothing, so there is nothing to preserve.  The reference's frame is its run with the result dropped.  For the
  equality of results on the extended reals: each program's run ends with its result array at one pure term of
  the six argument arrays (KernelRun over the three regions' whole-array functions of Region0/1/2; RefRun); the
  sparse stage is the same term in both (Cross), layer 1 is the same array (Layer1), and layer 2's two orders of
  aggregation and product agree entry by entry by distributivity and an exchange of two finite sums (Final,
  Algebra) — valid because every entry involved is a real number: the float arguments by the precondition
  (Finite), the degree as a finite sum of ones, its inverse square root taken only where the degree is positive
  (KRead), and everything built from these by sums, products and maxima.
-/
import proofs.«129788_j32727650795996_2_alg».proof.Defs
import proofs.«129788_j32727650795996_2_alg».proof.Proof.Gen.Kernel
import proofs.«129788_j32727650795996_2_alg».proof.Proof.Gen.Kernel.Frame
import proofs.«129788_j32727650795996_2_alg».proof.Proof.Gen.KernelIdeal
import proofs.«129788_j32727650795996_2_alg».proof.Proof.Gen.KernelIdeal.Frame
import proofs.«129788_j32727650795996_2_alg».proof.Proof.Gen.ReferenceIdeal
import proofs.«129788_j32727650795996_2_alg».proof.Proof.Gen.Pre_finite_inputs
import proofs.«129788_j32727650795996_2_alg».proof.Proof.KernelRun
import proofs.«129788_j32727650795996_2_alg».proof.Proof.RefRun
import proofs.«129788_j32727650795996_2_alg».proof.Proof.Finite
import proofs.«129788_j32727650795996_2_alg».proof.Proof.Final

noncomputable section

namespace Cert.Proof

open Idealize.ShloMosaic Idealize.SL.Sem

/-- The kernel's program as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.Gcn.reference_value m ρ)

/-- From memories agreeing on the arguments, finite by the precondition, both programs end with the same result. -/
theorem algebraic : Cert.algebraic_KernelIdeal_ReferenceIdeal := by
  intro m ρ m' ρ' hpre hagree
  refine ⟨_, Cert.Gcn.kernel_value m ρ, ?_⟩
  refine (θ_run Cert.ReferenceIdeal.defs _ _).mono (fun _ h c => ⟨(h c).1.trans ?_, (h c).2⟩)
    (Cert.Gcn.reference_value m' ρ')
  obtain ⟨h0, h1, h2, h3, h4, h5⟩ := hagree c
  obtain ⟨r0, r2, r3, r4, _⟩ := Cert.Gcn.real_of_pre _ _ _ _ _ _ (hpre c)
  rw [h0, h1, h2, h3, h4, h5]
  exact (Cert.Gcn.out_eq _ _ _ _ _ _ r0 r2 r3 r4).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
